-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x512 : Shape := ⟨2, ![1024, 512]⟩
abbrev S512 : Shape := ⟨1, ![512]⟩
abbrev S_ : Shape := ⟨0, ![]⟩
abbrev S512x128 : Shape := ⟨2, ![512, 128]⟩
abbrev S128 : Shape := ⟨1, ![128]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  reducesTo_S_S_d : S_.ReducesTo [] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  main_v37

def fn_part1 {F : FTy → Type} [FloatOps F] (main_arg4 : FVec F S512 .f32) (main_arg5 : FVec F S512 .f32) (main_arg6 : FVec F S512x128 .f32) (main_arg7 : FVec F S128 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S512 .f32 := Host.absf main_arg4
  let main_cst_6 : FVec F S_ .f32 := constant S_ .f32 0x7F800000#32
  let main_v19 : FVec F S512 .f32 := broadcastInDim S512 ![] bcast_S_S512 main_cst_6
  let main_v20 : IVec S512 1 := cmpf .olt main_v18 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v17 main_v21
  let main_v23 : FVec F S512 .f32 := Host.absf main_arg5
  let main_cst_8 : FVec F S_ .f32 := constant S_ .f32 0x7F800000#32
  let main_v24 : FVec F S512 .f32 := broadcastInDim S512 ![] bcast_S_S512 main_cst_8
  let main_v25 : IVec S512 1 := cmpf .olt main_v23 main_v24
  let main_c_9 : IVec S_ 1 := constantI S_ 1 1#1
  let main_v26 : IVec S_ 1 := (fun x v => Host.reduce IntOp.andi x v reducesTo_S512_S_d0 h_S_) main_v25 main_c_9
  let main_v27 : IVec S_ 1 := andi main_v22 main_v26
  let main_v28 : FVec F S512x128 .f32 := Host.absf main_arg6
  let main_cst_10 : FVec F S_ .f32 := constant S_ .f32 0x7F800000#32
  let main_v29 : FVec F S512x128 .f32 := broadcastInDim S512x128 ![] bcast_S_S512x128 main_cst_10
  let main_v30 : IVec S512x128 1 := cmpf .olt main_v28 main_v29
  let main_c_11 : IVec S_ 1 := constantI S_ 1 1#1
  let main_v31 : IVec S_ 1 := (fun x v => Host.reduce IntOp.andi x v reducesTo_S512x128_S_d0_1 h_S_) main_v30 main_c_11
  let main_v32 : IVec S_ 1 := andi main_v27 main_v31
  let main_v33 : FVec F S128 .f32 := Host.absf main_arg7
  fn_part2 (F := F) main_v32 main_v33

def fn {F : FTy → Type} [FloatOps F] (main_arg0 : FVec F S8192x1024 .f32) (main_arg1 : FVec F S1024x512 .f32) (main_arg2 : FVec F S512 .f32) (main_arg3 : FVec F S_ .f32) (main_arg4 : FVec F S512 .f32) (main_arg5 : FVec F S512 .f32) (main_arg6 : FVec F S512x128 .f32) (main_arg7 : FVec F S128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_arg6 main_arg7 main_v13 main_v15 main_c_5
-- ==== Kernel.lean ====
abbrev S8192x1024 : Shape := ⟨2, ![8192, 1024]⟩
abbrev S1024x512 : Shape := ⟨2, ![1024, 512]⟩
abbrev S512 : Shape := ⟨1, ![512]⟩
abbrev S_ : Shape := ⟨0, ![]⟩
abbrev S512x128 : Shape := ⟨2, ![512, 128]⟩
abbrev S128 : Shape := ⟨1, ![128]⟩
abbrev S1 : Shape := ⟨1, ![1]⟩
abbrev S8192x128 : Shape := ⟨2, ![8192, 128]⟩
abbrev S1024x1024 : Shape := ⟨2, ![1024, 1024]⟩
abbrev S1024x128 : Shape := ⟨2, ![1024, 128]⟩
abbrev S1x512 : Shape := ⟨2, ![1, 512]⟩
abbrev S1024 : Shape := ⟨1, ![1024]⟩
abbrev S1024x1 : Shape := ⟨2, ![1024, 1]⟩
abbrev S1x128 : Shape := ⟨2, ![1, 128]⟩
abbrev S8192x8192 : Shape := ⟨2, ![8192, 8192]⟩
abbrev S128x1024 : Shape := ⟨2, ![128, 1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S1, .f32⟩
  | .hbm, ⟨9, _⟩ => ⟨S8192x128, .f32⟩
  | .hbm, ⟨10, _⟩ => ⟨S8192x128, .bf16⟩
  | .hbm, ⟨11, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S512, .f32⟩
  | .local _ .vmem, ⟨4, _⟩ => ⟨S1, .f32⟩
  | .local _ .vmem, ⟨5, _⟩ => ⟨S512, .f32⟩
  | .local _ .vmem, ⟨6, _⟩ => ⟨S512, .f32⟩
  | .local _ .vmem, ⟨7, _⟩ => ⟨S512x128, .f32⟩
  | .local _ .vmem, ⟨8, _⟩ => ⟨S128, .f32⟩
  | .local _ .vmem, ⟨9, _⟩ => ⟨S1024x128, .f32⟩
  | .local _ .vmem, ⟨10, _⟩ => ⟨S1024x128, .f32⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x1024, .f32⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S_S1 : S_.ShapeCasts S1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1_S1_0 : ∀ a, (![0] : Fin 1 → Nat) a + S1.size a ≤ S1.size a
  h_S1 : 0 < S1.numel
  inpos_S1_p0 : ∀ a, (![0] : Fin 1 → Nat) a < S1.size a
  reduces_S1024x512_S1024 : S1024x512.Reduces [1] S1024
  shapeCasts_S1024_S1024x1 : S1024.ShapeCasts S1024x1
  broadcasts_S1024x1_S1024x512 : S1024x1.Broadcasts S1024x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  transposes_S1024x128_p1_0_S128x1024 : S1024x128.Transposes [1, 0] S128x1024
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S8192x128.size a
  hwx0_8 : ∀ i : grid0.Coords, EltTy.bits .f32 = 32 ∨ (Rect.block (s := S8192x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S8192x128.size a
  hwx0_9 : ∀ i : grid0.Coords, EltTy.bits .bf16 = 32 ∨ (Rect.block (s := S8192x128) S1024x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v1_1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x512 : Shape := ⟨2, ![1024, 512]⟩
abbrev S512 : Shape := ⟨1, ![512]⟩
abbrev S_ : Shape := ⟨0, ![]⟩
abbrev S512x128 : Shape := ⟨2, ![512, 128]⟩
abbrev S128 : Shape := ⟨1, ![128]⟩
abbrev S8192x512 : Shape := ⟨2, ![8192, 512]⟩
abbrev S1x512 : Shape := ⟨2, ![1, 512]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .i1⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x512, .f32⟩
  | .hbm, ⟨40, _⟩ => ⟨S8192x512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x128, .f32⟩
  | .hbm, ⟨48, _⟩ => ⟨S1x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x128, .f32⟩
  | .hbm, ⟨60, _⟩ => ⟨S8192x128, .f32⟩
  | .hbm, ⟨61, _⟩ => ⟨S128x8192, .f32⟩
  | .hbm, ⟨62, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_call1_v2 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  bcast_S8192x1_S8192x128_0_1 : S8192x1.BroadcastsInDim S8192x128 (![0, 1] : Fin 2 → Fin S8192x128.rank)
  transposes_S8192x128_S128x8192_1_0 : S8192x128.Transposes [1, 0] S128x8192
  dot_S8192x1024_S1024x512_S8192x512_1_0_0_1_n_n_wf : DotDims.WF S8192x1024 S1024x512 S8192x512 [1] [0] [0] [1] [] []
  dot_S8192x512_S512x128_S8192x128_1_0_0_1_n_n_wf : DotDims.WF S8192x512 S512x128 S8192x128 [1] [0] [0] [1] [] []
  dot_S8192x128_S128x8192_S8192x8192_1_0_0_1_n_n_wf : DotDims.WF S8192x128 S128x8192 S8192x8192 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KRegion0.lean ====
/-
  The first kernel region (the fused layers, eight points of 1024 rows each), as the pipeline library asks for it, at
  any float instance: what each window's staging buffer holds at a point, the body's run on those buffers, and the
  proof data of the region at a parameter `V`, the buffer contents the region is entered with.

  Each of the eight input windows holds its block of its array at every point — fetched there or left in place from the
  point before, since the body stores into no input buffer. The body loads the eight blocks whole, stores the second
  layer's result over the first output buffer whole and the scaled rows over the second, so after the body each output
  buffer is one store's value as a function of the eight loaded blocks (`out0_8`, `out0_9`).
-/
import proofs.«147210_j66846870995045_1_alg».proof.Proof.Gen.Kernel.Launch
import proofs.«147210_j66846870995045_1_alg».proof.Proof.Gen.Kernel.Skeleton
import proofs.«147210_j66846870995045_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, for any proof data over `V` whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, for any proof data over `V` whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores: every one a whole buffer -/

abbrev rX : Rect S1024x1024 := Rect.unit (s := S1024x1024) ![0, 0] S1024x1024.size inb_S1024x1024_S1024x1024_0_0
abbrev rW1 : Rect S1024x512 := Rect.unit (s := S1024x512) ![0, 0] S1024x512.size inb_S1024x512_S1024x512_0_0
abbrev rV512 : Rect S512 := Rect.unit (s := S512) ![0] S512.size inb_S512_S512_0
abbrev rV1 : Rect S1 := Rect.unit (s := S1) ![0] S1.size inb_S1_S1_0
abbrev rW2 : Rect S512x128 := Rect.unit (s := S512x128) ![0, 0] S512x128.size inb_S512x128_S512x128_0_0
abbrev rV128 : Rect S128 := Rect.unit (s := S128) ![0] S128.size inb_S128_S128_0
abbrev rO : Rect S1024x128 := Rect.unit (s := S1024x128) ![0, 0] S1024x128.size inb_S1024x128_S1024x128_0_0

/-- The first output buffer after the body: one whole store of the second layer's value of the loaded blocks. -/
def out0_8 (x0 : Vec F S1024x1024 .f32) (x1 : Vec F S1024x512 .f32) (x2 : Vec F S512 .f32) (x3 : Vec F S1 .f32) (x4 : Vec F S512 .f32) (x5 : Vec F S512 .f32) (x6 : Vec F S512x128 .f32) (x7 : Vec F S128 .f32) : Vec F S1024x128 .f32 :=
  View.canon [⟨rO, k0_pay1 (k0_pay3 (View.ld x0 rX) (View.ld x1 rW1) (View.ld x2 rV512) (View.ld x3 rV1) (View.ld x4 rV512) (View.ld x5 rV512)) (View.ld x6 rW2) (View.ld x7 rV128)⟩]

/-- The second output buffer after the body: one whole store of the scaled rows. -/
def out0_9 (x0 : Vec F S1024x1024 .f32) (x1 : Vec F S1024x512 .f32) (x2 : Vec F S512 .f32) (x3 : Vec F S1 .f32) (x4 : Vec F S512 .f32) (x5 : Vec F S512 .f32) (x6 : Vec F S512x128 .f32) (x7 : Vec F S128 .f32) : Vec F S1024x128 .bf16 :=
  View.canon [⟨rO, k0_pay2 (k0_pay3 (View.ld x0 rX) (View.ld x1 rW1) (View.ld x2 rV512) (View.ld x3 rV1) (View.ld x4 rV512) (View.ld x5 rV512)) (View.ld x6 rW2) (View.ld x7 rV128)⟩]

theorem cover0_8 (p0 : Vec F S1024x128 .f32) (y : S1024x128.Idx) :
    ∃ pc ∈ ([⟨rO, p0⟩] : List (View.Piece (Elt F) S1024x128 .f32)), y ∈ pc.1.set :=
  View.cover_of_tiled [⟨rO, p0⟩] S1024x128.size (by rfl) y

theorem cover0_9 (p0 : Vec F S1024x128 .bf16) (y : S1024x128.Idx) :
    ∃ pc ∈ ([⟨rO, p0⟩] : List (View.Piece (Elt F) S1024x128 .bf16)), y ∈ pc.1.set :=
  View.cover_of_tiled [⟨rO, p0⟩] S1024x128.size (by rfl) y

set_option maxHeartbeats 4000000 in
/-- The body on whole staging memrefs, the inputs' at contents `xW` and the outputs' at anything, runs to the
    continuation with the inputs' as they were and the outputs' at `out0_8`, `out0_9` of the inputs'. -/
theorem sound_kernel0 (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S512 .f32) (harg3 : arg3.IsWhole) (arg4 : Memref sig .tc .vmem S1 .f32) (harg4 : arg4.IsWhole) (arg5 : Memref sig .tc .vmem S512 .f32) (harg5 : arg5.IsWhole) (arg6 : Memref sig .tc .vmem S512 .f32) (harg6 : arg6.IsWhole) (arg7 : Memref sig .tc .vmem S512x128 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .bf16) (harg10 : arg10.IsWhole)
    (x0 : Vec F S1024x1024 .f32) (x1 : Vec F S1024x512 .f32) (x2 : Vec F S512 .f32) (x3 : Vec F S1 .f32) (x4 : Vec F S512 .f32) (x5 : Vec F S512 .f32) (x6 : Vec F S512x128 .f32) (x7 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The region's proof data -/

/-- The arrays as the region finds them; after the body at point `t` each input's buffer at its block and each output's
    at its store's value of the input blocks; the invariant the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second kernel region (all pairs of scaled rows, an 8 × 8 grid of 1024 × 1024 tiles), as the pipeline library asks
  for it, at any float instance and at a parameter `V`, the buffer contents the region is entered with.

  Both input windows read the SAME array, the scaled rows: window 0 the block of rows the tile's row index names,
  window 1 the block its column index names. The region therefore holds that array twice, at the two halves of the full
  share (`q`); each staging buffer is its own, held whole. The body loads both blocks and stores, over the whole output
  buffer, the product of the first with the transpose of the second (`out1_2`).
-/
import proofs.«147210_j66846870995045_1_alg».proof.Proof.Gen.Kernel.Launch
import proofs.«147210_j66846870995045_1_alg».proof.Proof.Gen.Kernel.Skeleton
import proofs.«147210_j66846870995045_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores: whole buffers -/

abbrev rRows : Rect S1024x128 := Rect.unit (s := S1024x128) ![0, 0] S1024x128.size inb_S1024x128_S1024x128_0_0
abbrev rTile : Rect S1024x1024 := Rect.unit (s := S1024x1024) ![0, 0] S1024x1024.size inb_S1024x1024_S1024x1024_0_0

/-- The output buffer after the body: one whole store of the product of the two loaded blocks. -/
def out1_2 (x0 x1 : Vec F S1024x128 .bf16) : Vec F S1024x1024 .f32 :=
  View.canon [⟨rTile, k1_pay1 (View.ld x0 rRows) (View.ld x1 rRows)⟩]

theorem cover1_2 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

set_option maxHeartbeats 4000000 in
/-- The body on whole staging memrefs, the inputs' at contents `x0`, `x1` and the output's at anything, runs to the
    continuation with the inputs' as they were and the output's at `out1_2 x0 x1`. -/
theorem sound_kernel1 (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__cosine_kernel i arg2 harg2 arg3 harg3 arg4 harg4) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The arrays as the region finds them; after the body at point `t` each input's buffer at its block and the output's
    at the product of the two; the invariant the untouched rest; nothing owed; the one input array held by halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares the region holds its three arrays at. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program's run, at any float instance: a reshape on the host, then the two kernel regions one after the
  other, followed from the launch memory to the return with every unscoped buffer's contents named at each boundary.

  `W1` is the memory after the reshape; `W2` after the first region — its two result arrays at what the region's
  write-backs leave, every other buffer untouched —; `W3` after the second region, which changes the pairs' array alone.
  The second region reads the scaled rows through two windows: on entry the one buffer, held whole, is divided into its
  two half shares, one per window, and on exit the halves (the region never writes an input) are joined again.
  `run_main` is the run with every unscoped buffer at `W3` at the end; the arguments read through `W3` are the launch
  memory's, and the two results are the regions' final arrays.
-/
import proofs.«147210_j66846870995045_1_alg».proof.Proof.KRegion0
import proofs.«147210_j66846870995045_1_alg».proof.Proof.KRegion1
import proofs.«147210_j66846870995045_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the pairs' array at what the pipeline leaves, every other buffer as entered. -/
def W3 (c : Dev nD) : Valuation τ sig (Elt F) :=
  Function.update (W2 m ρ c) (Proc.devRef .tc main_v2) ((dat1 (V2 m ρ) c).arrAt 2 cfg1.N : Buf (Elt F) ((c : Thread nD τ).loc main_v2))
theorem W3_out (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- The reshape writes its one result and nothing else. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  (W3_of_ne m ρ c main_arg0 (by decide)).trans <| ((W2_arr m ρ c 0).trans (((dat0 (V1 m ρ) c).arrAt_in 0 rfl _).trans (A_eq0 (V1 m ρ) c 0))).trans <| (W1_of m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| ((W2_arr m ρ c 1).trans (((dat0 (V1 m ρ) c).arrAt_in 1 rfl _).trans (A_eq0 (V1 m ρ) c 1))).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| ((W2_arr m ρ c 2).trans (((dat0 (V1 m ρ) c).arrAt_in 2 rfl _).trans (A_eq0 (V1 m ρ) c 2))).trans <| (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| ((W2_arr m ρ c 4).trans (((dat0 (V1 m ρ) c).arrAt_in 4 rfl _).trans (A_eq0 (V1 m ρ) c 4))).trans <| (W1_of m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| ((W2_arr m ρ c 5).trans (((dat0 (V1 m ρ) c).arrAt_in 5 rfl _).trans (A_eq0 (V1 m ρ) c 5))).trans <| (W1_of m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| ((W2_arr m ρ c 6).trans (((dat0 (V1 m ρ) c).arrAt_in 6 rfl _).trans (A_eq0 (V1 m ρ) c 6))).trans <| (W1_of m ρ c main_arg6 (by decide)).trans rfl
theorem W3_main_arg7 (c : Dev nD) : W3 m ρ c (Proc.devRef .tc main_arg7) = m ((c : Thread nD τ).loc main_arg7) :=
  (W3_of_ne m ρ c main_arg7 (by decide)).trans <| ((W2_arr m ρ c 7).trans (((dat0 (V1 m ρ) c).arrAt_in 7 rfl _).trans (A_eq0 (V1 m ρ) c 7))).trans <| (W1_of m ρ c main_arg7 (by decide)).trans rfl

/-- The first result is the first region's first output array, untouched by the second region. -/
theorem W3_main_v1_0 (c : Dev nD) : W3 m ρ c (Proc.devRef .tc main_v1_0) = (dat0 (V1 m ρ) c).arrAt 8 cfg0.N :=
  (W3_of_ne m ρ c main_v1_0 (by decide)).trans (W2_arr m ρ c 8)
/-- The scaled rows the second region reads are the first region's second output array. -/
theorem V2_main_v1_1 (c : Dev nD) : V2 m ρ c main_v1_1 = (dat0 (V1 m ρ) c).arrAt 9 cfg0.N := W2_arr m ρ c 9

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The second region's array held by halves -/

/-- The two buffers behind the second region's three windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1_1) ↦{fullShare} V main_v1_1) ∗ (((c : Thread nD τ).loc main_v2) ↦{fullShare} V main_v2)) := by
  unfold Pipeline.arrBufs
  rw [show (Finset.univ.image (Pipeline.arrRef spec1) : Finset (Ref sig .tc)) = {main_v1_1, main_v2} from by decide,
    BI.bigSep_insert (by decide), BI.bigSep_singleton]
  rfl

/-- The second region's arrays, window by window, at the shares its proof data hold them. -/
theorem arrays1_eq (c : Dev nD) (Vp : (c : Dev nD) → (b : Ref sig .tc) → Buf (Elt F) ((c : Thread nD τ).loc b))
    (G : (w : Fin cfg1.W) → Buf (Elt F) ((cfg1.win w).arr.view.loc (c : Thread nD τ))) :
    ((dat1 Vp c).arrays G : sProp 𝕄)
      = iprop((((c : Thread nD τ).loc main_v1_1) ↦{fullShare.left} G 0) ∗ (((c : Thread nD τ).loc main_v1_1) ↦{fullShare.right} G 1)
          ∗ (((c : Thread nD τ).loc main_v2) ↦{fullShare} G 2)) := by
  unfold Dat.arrays
  rw [bigSep_W1, (arr_whole1 0).set_eq_univ, (arr_whole1 2).set_eq_univ, share1_0, share1_1, share1_2]

end Cert.Kernel.Hand

end
-- ==== Proof.KFrame.lean ====
/-
  The run of the whole program as the pipeline library composes it: the reshape as a host segment, each kernel region as
  a region segment entered from "every unscoped buffer at the boundary's contents, the generator register at some
  state, nothing owed" and left in the same form at the next boundary's contents.

  The first region's arrays are ten distinct buffers: they are split out of the unscoped buffers whole and put back at
  what the write-backs leave. The second region's three windows stand on two buffers: the scaled rows, read through two
  windows, are split out whole and divided into two half shares, one per window; at the exit both halves still hold what
  the region was entered with (an input array is never written back) and are joined, and the pairs' array returns at
  what the 64 write-backs leave.
-/
import proofs.«147210_j66846870995045_1_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The second region's entry and exit: one buffer, two windows -/

/-- ENTRY: the unscoped buffers at `V c` yield the second region's arrays at the entry contents — the scaled rows twice,
    by halves — beside the unscoped rest. -/
theorem entry1 (c : Dev nD) (Vp : (c : Dev nD) → (b : Ref sig .tc) → Buf (Elt F) ((c : Thread nD τ).loc b)) :
    (unscopedBufs c (Vp c) : sProp 𝕄)
      ⊢ iprop((dat1 Vp c).arrays ((dat1 Vp c).arrAt · 0) ∗ Pipeline.unscopedRest (Ix := Unit) (Name := ℕ) (U := UR sig nD τ) (Lvl := ℕ) spec1 c (Vp c)) := by
  rw [show (unscopedBufs c (Vp c) : sProp 𝕄) = iprop(Pipeline.arrBufs spec1 c (Vp c) ∗ Pipeline.unscopedRest spec1 c (Vp c))
      from Pipeline.unscopedBufs_split₀ cfgs 1 winFacts₀1.arr_unscoped c (Vp c), arrBufs1_eq, arrays1_eq]
  iintro ⟨⟨Hz, Hy⟩, Hrest⟩
  ihave Hz2 := (pointsTo_share (PosShare.mem_left_op_right fullShare)).1 $$ Hz
  icases Hz2 with ⟨Hl, Hr⟩
  isplitr [Hrest]
  · isplitl [Hl]; · iexact Hl
    isplitl [Hr]; · iexact Hr
    iexact Hy
  iexact Hrest

/-- EXIT: the second region's arrays at their final contents and the unscoped rest are the unscoped buffers at any
    contents `V'` that agree with the entry's off the pairs' array and have that array at its final contents. -/
theorem exit1 (c : Dev nD) (Vp : (c : Dev nD) → (b : Ref sig .tc) → Buf (Elt F) ((c : Thread nD τ).loc b))
    (V' : (b : Ref sig .tc) → Buf (Elt F) ((c : Thread nD τ).loc b))
    (hout : V' main_v2 = (dat1 Vp c).arrAt 2 cfg1.N) (hrest : ∀ b, b ≠ main_v2 → V' b = Vp c b) :
    iprop((dat1 Vp c).arrays ((dat1 Vp c).arrAt · cfg1.N) ∗ Pipeline.unscopedRest (Ix := Unit) (Name := ℕ) (U := UR sig nD τ) (Lvl := ℕ) spec1 c (Vp c))
      ⊢ (unscopedBufs c V' : sProp 𝕄) := by
  rw [show (unscopedBufs c V' : sProp 𝕄) = iprop(Pipeline.arrBufs spec1 c V' ∗ Pipeline.unscopedRest spec1 c V')
      from Pipeline.unscopedBufs_split₀ cfgs 1 winFacts₀1.arr_unscoped c V', arrBufs1_eq, arrays1_eq,
    show (dat1 Vp c).arrAt 0 cfg1.N = Vp c main_v1_1 from ((dat1 Vp c).arrAt_in 0 rfl _).trans (A_eq1 Vp c 0),
    show (dat1 Vp c).arrAt 1 cfg1.N = Vp c main_v1_1 from ((dat1 Vp c).arrAt_in 1 rfl _).trans (A_eq1 Vp c 1),
    hout, hrest main_v1_1 (by decide)]
  iintro ⟨⟨Hl, Hr, Hy⟩, Hrest⟩
  isplitr [Hrest]
  · isplitr [Hy]
    · iapply (pointsTo_share (PosShare.mem_left_op_right fullShare)).2
      isplitl [Hl]; · iexact Hl
      iexact Hr
    iexact Hy
  unfold Pipeline.unscopedRest
  iapply (Entails.of_eq (bigSep_congr fun b hb => by
    rw [hrest b (fun e => (Finset.mem_sdiff.mp hb).2 (e ▸ (by decide : main_v2 ∈ Finset.univ.image (Pipeline.arrRef spec1))))]))
  iexact Hrest

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V2 m ρ c)) := entry1 c (V2 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V3 m ρ c) : sProp 𝕄) := exit1 c (V2 m ρ) (V3 m ρ c) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c)⟩) (run_main m ρ)

end Cert.Kernel.Hand

end
-- ==== Proof.KiRegion0.lean ====
/-
  The first kernel region (the fused layers, eight points of 1024 rows each), as the pipeline library asks for it, at
  any float instance: what each window's staging buffer holds at a point, the body's run on those buffers, and the
  proof data of the region at a parameter `V`, the buffer contents the region is entered with.

  Each of the eight input windows holds its block of its array at every point — fetched there or left in place from the
  point before, since the body stores into no input buffer. The body loads the eight blocks whole, stores the second
  layer's result over the first output buffer whole and the scaled rows over the second, so after the body each output
  buffer is one store's value as a function of the eight loaded blocks (`out0_8`, `out0_9`).
-/
import proofs.«147210_j66846870995045_1_alg».proof.Proof.Gen.KernelIdeal.Launch
import proofs.«147210_j66846870995045_1_alg».proof.Proof.Gen.KernelIdeal.Skeleton
import proofs.«147210_j66846870995045_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, for any proof data over `V` whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, for any proof data over `V` whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores: every one a whole buffer -/

abbrev rX : Rect S1024x1024 := Rect.unit (s := S1024x1024) ![0, 0] S1024x1024.size inb_S1024x1024_S1024x1024_0_0
abbrev rW1 : Rect S1024x512 := Rect.unit (s := S1024x512) ![0, 0] S1024x512.size inb_S1024x512_S1024x512_0_0
abbrev rV512 : Rect S512 := Rect.unit (s := S512) ![0] S512.size inb_S512_S512_0
abbrev rV1 : Rect S1 := Rect.unit (s := S1) ![0] S1.size inb_S1_S1_0
abbrev rW2 : Rect S512x128 := Rect.unit (s := S512x128) ![0, 0] S512x128.size inb_S512x128_S512x128_0_0
abbrev rV128 : Rect S128 := Rect.unit (s := S128) ![0] S128.size inb_S128_S128_0
abbrev rO : Rect S1024x128 := Rect.unit (s := S1024x128) ![0, 0] S1024x128.size inb_S1024x128_S1024x128_0_0

/-- The first output buffer after the body: one whole store of the second layer's value of the loaded blocks. -/
def out0_8 (x0 : Vec F S1024x1024 .f32) (x1 : Vec F S1024x512 .f32) (x2 : Vec F S512 .f32) (x3 : Vec F S1 .f32) (x4 : Vec F S512 .f32) (x5 : Vec F S512 .f32) (x6 : Vec F S512x128 .f32) (x7 : Vec F S128 .f32) : Vec F S1024x128 .f32 :=
  View.canon [⟨rO, k0_pay1 (k0_pay3 (View.ld x0 rX) (View.ld x1 rW1) (View.ld x2 rV512) (View.ld x3 rV1) (View.ld x4 rV512) (View.ld x5 rV512)) (View.ld x6 rW2) (View.ld x7 rV128)⟩]

/-- The second output buffer after the body: one whole store of the scaled rows. -/
def out0_9 (x0 : Vec F S1024x1024 .f32) (x1 : Vec F S1024x512 .f32) (x2 : Vec F S512 .f32) (x3 : Vec F S1 .f32) (x4 : Vec F S512 .f32) (x5 : Vec F S512 .f32) (x6 : Vec F S512x128 .f32) (x7 : Vec F S128 .f32) : Vec F S1024x128 .bf16 :=
  View.canon [⟨rO, k0_pay2 (k0_pay3 (View.ld x0 rX) (View.ld x1 rW1) (View.ld x2 rV512) (View.ld x3 rV1) (View.ld x4 rV512) (View.ld x5 rV512)) (View.ld x6 rW2) (View.ld x7 rV128)⟩]

theorem cover0_8 (p0 : Vec F S1024x128 .f32) (y : S1024x128.Idx) :
    ∃ pc ∈ ([⟨rO, p0⟩] : List (View.Piece (Elt F) S1024x128 .f32)), y ∈ pc.1.set :=
  View.cover_of_tiled [⟨rO, p0⟩] S1024x128.size (by rfl) y

theorem cover0_9 (p0 : Vec F S1024x128 .bf16) (y : S1024x128.Idx) :
    ∃ pc ∈ ([⟨rO, p0⟩] : List (View.Piece (Elt F) S1024x128 .bf16)), y ∈ pc.1.set :=
  View.cover_of_tiled [⟨rO, p0⟩] S1024x128.size (by rfl) y

set_option maxHeartbeats 4000000 in
/-- The body on whole staging memrefs, the inputs' at contents `xW` and the outputs' at anything, runs to the
    continuation with the inputs' as they were and the outputs' at `out0_8`, `out0_9` of the inputs'. -/
theorem sound_kernel0 (c : Dev nD) (E : Set ℕ) (i : grid0.Coords) (arg1 : Memref sig .tc .vmem S1024x1024 .f32) (harg1 : arg1.IsWhole) (arg2 : Memref sig .tc .vmem S1024x512 .f32) (harg2 : arg2.IsWhole) (arg3 : Memref sig .tc .vmem S512 .f32) (harg3 : arg3.IsWhole) (arg4 : Memref sig .tc .vmem S1 .f32) (harg4 : arg4.IsWhole) (arg5 : Memref sig .tc .vmem S512 .f32) (harg5 : arg5.IsWhole) (arg6 : Memref sig .tc .vmem S512 .f32) (harg6 : arg6.IsWhole) (arg7 : Memref sig .tc .vmem S512x128 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .bf16) (harg10 : arg10.IsWhole)
    (x0 : Vec F S1024x1024 .f32) (x1 : Vec F S1024x512 .f32) (x2 : Vec F S512 .f32) (x3 : Vec F S1 .f32) (x4 : Vec F S512 .f32) (x5 : Vec F S512 .f32) (x6 : Vec F S512x128 .f32) (x7 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The region's proof data -/

/-- The arrays as the region finds them; after the body at point `t` each input's buffer at its block and each output's
    at its store's value of the input blocks; the invariant the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiRegion1.lean ====
/-
  The second kernel region (all pairs of scaled rows, an 8 × 8 grid of 1024 × 1024 tiles), as the pipeline library asks
  for it, at any float instance and at a parameter `V`, the buffer contents the region is entered with.

  Both input windows read the SAME array, the scaled rows: window 0 the block of rows the tile's row index names,
  window 1 the block its column index names. The region therefore holds that array twice, at the two halves of the full
  share (`q`); each staging buffer is its own, held whole. The body loads both blocks and stores, over the whole output
  buffer, the product of the first with the transpose of the second (`out1_2`).
-/
import proofs.«147210_j66846870995045_1_alg».proof.Proof.Gen.KernelIdeal.Launch
import proofs.«147210_j66846870995045_1_alg».proof.Proof.Gen.KernelIdeal.Skeleton
import proofs.«147210_j66846870995045_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores: whole buffers -/

abbrev rRows : Rect S1024x128 := Rect.unit (s := S1024x128) ![0, 0] S1024x128.size inb_S1024x128_S1024x128_0_0
abbrev rTile : Rect S1024x1024 := Rect.unit (s := S1024x1024) ![0, 0] S1024x1024.size inb_S1024x1024_S1024x1024_0_0

/-- The output buffer after the body: one whole store of the product of the two loaded blocks. -/
def out1_2 (x0 x1 : Vec F S1024x128 .bf16) : Vec F S1024x1024 .f32 :=
  View.canon [⟨rTile, k1_pay1 (View.ld x0 rRows) (View.ld x1 rRows)⟩]

theorem cover1_2 (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

set_option maxHeartbeats 4000000 in
/-- The body on whole staging memrefs, the inputs' at contents `x0`, `x1` and the output's at anything, runs to the
    continuation with the inputs' as they were and the output's at `out1_2 x0 x1`. -/
theorem sound_kernel1 (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole)
    (x0 x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__cosine_kernel i arg2 harg2 arg3 harg3 arg4 harg4) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The arrays as the region finds them; after the body at point `t` each input's buffer at its block and the output's
    at the product of the two; the invariant the untouched rest; nothing owed; the one input array held by halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The shares the region holds its three arrays at. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the inputs' memrefs hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The whole program's run, at any float instance: a reshape on the host, then the two kernel regions one after the
  other, followed from the launch memory to the return with every unscoped buffer's contents named at each boundary.

  `W1` is the memory after the reshape; `W2` after the first region — its two result arrays at what the region's
  write-backs leave, every other buffer untouched —; `W3` after the second region, which changes the pairs' array alone.
  The second region reads the scaled rows through two windows: on entry the one buffer, held whole, is divided into its
  two half shares, one per window, and on exit the halves (the region never writes an input) are joined again.
  `run_main` is the run with every unscoped buffer at `W3` at the end; the arguments read through `W3` are the launch
  memory's, and the two results are the regions' final arrays.
-/
import proofs.«147210_j66846870995045_1_alg».proof.Proof.KiRegion0
import proofs.«147210_j66846870995045_1_alg».proof.Proof.KiRegion1
import proofs.«147210_j66846870995045_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the pairs' array at what the pipeline leaves, every other buffer as entered. -/
def W3 (c : Dev nD) : Valuation τ sig (Elt F) :=
  Function.update (W2 m ρ c) (Proc.devRef .tc main_v2) ((dat1 (V2 m ρ) c).arrAt 2 cfg1.N : Buf (Elt F) ((c : Thread nD τ).loc main_v2))
theorem W3_out (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- The reshape writes its one result and nothing else. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-! ### The arguments end as launched -/

theorem W3_main_arg0 (c : Dev nD) : W3 m ρ c (Proc.devRef .tc main_arg0) = m ((c : Thread nD τ).loc main_arg0) :=
  (W3_of_ne m ρ c main_arg0 (by decide)).trans <| ((W2_arr m ρ c 0).trans (((dat0 (V1 m ρ) c).arrAt_in 0 rfl _).trans (A_eq0 (V1 m ρ) c 0))).trans <| (W1_of m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| ((W2_arr m ρ c 1).trans (((dat0 (V1 m ρ) c).arrAt_in 1 rfl _).trans (A_eq0 (V1 m ρ) c 1))).trans <| (W1_of m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| ((W2_arr m ρ c 2).trans (((dat0 (V1 m ρ) c).arrAt_in 2 rfl _).trans (A_eq0 (V1 m ρ) c 2))).trans <| (W1_of m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <| (W1_of m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| ((W2_arr m ρ c 4).trans (((dat0 (V1 m ρ) c).arrAt_in 4 rfl _).trans (A_eq0 (V1 m ρ) c 4))).trans <| (W1_of m ρ c main_arg4 (by decide)).trans rfl
theorem W3_main_arg5 (c : Dev nD) : W3 m ρ c (Proc.devRef .tc main_arg5) = m ((c : Thread nD τ).loc main_arg5) :=
  (W3_of_ne m ρ c main_arg5 (by decide)).trans <| ((W2_arr m ρ c 5).trans (((dat0 (V1 m ρ) c).arrAt_in 5 rfl _).trans (A_eq0 (V1 m ρ) c 5))).trans <| (W1_of m ρ c main_arg5 (by decide)).trans rfl
theorem W3_main_arg6 (c : Dev nD) : W3 m ρ c (Proc.devRef .tc main_arg6) = m ((c : Thread nD τ).loc main_arg6) :=
  (W3_of_ne m ρ c main_arg6 (by decide)).trans <| ((W2_arr m ρ c 6).trans (((dat0 (V1 m ρ) c).arrAt_in 6 rfl _).trans (A_eq0 (V1 m ρ) c 6))).trans <| (W1_of m ρ c main_arg6 (by decide)).trans rfl
theorem W3_main_arg7 (c : Dev nD) : W3 m ρ c (Proc.devRef .tc main_arg7) = m ((c : Thread nD τ).loc main_arg7) :=
  (W3_of_ne m ρ c main_arg7 (by decide)).trans <| ((W2_arr m ρ c 7).trans (((dat0 (V1 m ρ) c).arrAt_in 7 rfl _).trans (A_eq0 (V1 m ρ) c 7))).trans <| (W1_of m ρ c main_arg7 (by decide)).trans rfl

/-- The first result is the first region's first output array, untouched by the second region. -/
theorem W3_main_v1_0 (c : Dev nD) : W3 m ρ c (Proc.devRef .tc main_v1_0) = (dat0 (V1 m ρ) c).arrAt 8 cfg0.N :=
  (W3_of_ne m ρ c main_v1_0 (by decide)).trans (W2_arr m ρ c 8)
/-- The scaled rows the second region reads are the first region's second output array. -/
theorem V2_main_v1_1 (c : Dev nD) : V2 m ρ c main_v1_1 = (dat0 (V1 m ρ) c).arrAt 9 cfg0.N := W2_arr m ρ c 9

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The second region's array held by halves -/

/-- The two buffers behind the second region's three windows. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1_1) ↦{fullShare} V main_v1_1) ∗ (((c : Thread nD τ).loc main_v2) ↦{fullShare} V main_v2)) := by
  unfold Pipeline.arrBufs
  rw [show (Finset.univ.image (Pipeline.arrRef spec1) : Finset (Ref sig .tc)) = {main_v1_1, main_v2} from by decide,
    BI.bigSep_insert (by decide), BI.bigSep_singleton]
  rfl

/-- The second region's arrays, window by window, at the shares its proof data hold them. -/
theorem arrays1_eq (c : Dev nD) (Vp : (c : Dev nD) → (b : Ref sig .tc) → Buf (Elt F) ((c : Thread nD τ).loc b))
    (G : (w : Fin cfg1.W) → Buf (Elt F) ((cfg1.win w).arr.view.loc (c : Thread nD τ))) :
    ((dat1 Vp c).arrays G : sProp 𝕄)
      = iprop((((c : Thread nD τ).loc main_v1_1) ↦{fullShare.left} G 0) ∗ (((c : Thread nD τ).loc main_v1_1) ↦{fullShare.right} G 1)
          ∗ (((c : Thread nD τ).loc main_v2) ↦{fullShare} G 2)) := by
  unfold Dat.arrays
  rw [bigSep_W1, (arr_whole1 0).set_eq_univ, (arr_whole1 2).set_eq_univ, share1_0, share1_1, share1_2]

end Cert.KernelIdeal.Hand

end
-- ==== Proof.KiFrame.lean ====
/-
  The run of the whole program as the pipeline library composes it: the reshape as a host segment, each kernel region as
  a region segment entered from "every unscoped buffer at the boundary's contents, the generator register at some
  state, nothing owed" and left in the same form at the next boundary's contents.

  The first region's arrays are ten distinct buffers: they are split out of the unscoped buffers whole and put back at
  what the write-backs leave. The second region's three windows stand on two buffers: the scaled rows, read through two
  windows, are split out whole and divided into two half shares, one per window; at the exit both halves still hold what
  the region was entered with (an input array is never written back) and are joined, and the pairs' array returns at
  what the 64 write-backs leave.
-/
import proofs.«147210_j66846870995045_1_alg».proof.Proof.KiRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The second region's entry and exit: one buffer, two windows -/

/-- ENTRY: the unscoped buffers at `V c` yield the second region's arrays at the entry contents — the scaled rows twice,
    by halves — beside the unscoped rest. -/
theorem entry1 (c : Dev nD) (Vp : (c : Dev nD) → (b : Ref sig .tc) → Buf (Elt F) ((c : Thread nD τ).loc b)) :
    (unscopedBufs c (Vp c) : sProp 𝕄)
      ⊢ iprop((dat1 Vp c).arrays ((dat1 Vp c).arrAt · 0) ∗ Pipeline.unscopedRest (Ix := Unit) (Name := ℕ) (U := UR sig nD τ) (Lvl := ℕ) spec1 c (Vp c)) := by
  rw [show (unscopedBufs c (Vp c) : sProp 𝕄) = iprop(Pipeline.arrBufs spec1 c (Vp c) ∗ Pipeline.unscopedRest spec1 c (Vp c))
      from Pipeline.unscopedBufs_split₀ cfgs 1 winFacts₀1.arr_unscoped c (Vp c), arrBufs1_eq, arrays1_eq]
  iintro ⟨⟨Hz, Hy⟩, Hrest⟩
  ihave Hz2 := (pointsTo_share (PosShare.mem_left_op_right fullShare)).1 $$ Hz
  icases Hz2 with ⟨Hl, Hr⟩
  isplitr [Hrest]
  · isplitl [Hl]; · iexact Hl
    isplitl [Hr]; · iexact Hr
    iexact Hy
  iexact Hrest

/-- EXIT: the second region's arrays at their final contents and the unscoped rest are the unscoped buffers at any
    contents `V'` that agree with the entry's off the pairs' array and have that array at its final contents. -/
theorem exit1 (c : Dev nD) (Vp : (c : Dev nD) → (b : Ref sig .tc) → Buf (Elt F) ((c : Thread nD τ).loc b))
    (V' : (b : Ref sig .tc) → Buf (Elt F) ((c : Thread nD τ).loc b))
    (hout : V' main_v2 = (dat1 Vp c).arrAt 2 cfg1.N) (hrest : ∀ b, b ≠ main_v2 → V' b = Vp c b) :
    iprop((dat1 Vp c).arrays ((dat1 Vp c).arrAt · cfg1.N) ∗ Pipeline.unscopedRest (Ix := Unit) (Name := ℕ) (U := UR sig nD τ) (Lvl := ℕ) spec1 c (Vp c))
      ⊢ (unscopedBufs c V' : sProp 𝕄) := by
  rw [show (unscopedBufs c V' : sProp 𝕄) = iprop(Pipeline.arrBufs spec1 c V' ∗ Pipeline.unscopedRest spec1 c V')
      from Pipeline.unscopedBufs_split₀ cfgs 1 winFacts₀1.arr_unscoped c V', arrBufs1_eq, arrays1_eq,
    show (dat1 Vp c).arrAt 0 cfg1.N = Vp c main_v1_1 from ((dat1 Vp c).arrAt_in 0 rfl _).trans (A_eq1 Vp c 0),
    show (dat1 Vp c).arrAt 1 cfg1.N = Vp c main_v1_1 from ((dat1 Vp c).arrAt_in 1 rfl _).trans (A_eq1 Vp c 1),
    hout, hrest main_v1_1 (by decide)]
  iintro ⟨⟨Hl, Hr, Hy⟩, Hrest⟩
  isplitr [Hrest]
  · isplitr [Hy]
    · iapply (pointsTo_share (PosShare.mem_left_op_right fullShare)).2
      isplitl [Hl]; · iexact Hl
      iexact Hr
    iexact Hy
  unfold Pipeline.unscopedRest
  iapply (Entails.of_eq (bigSep_congr fun b hb => by
    rw [hrest b (fun e => (Finset.mem_sdiff.mp hb).2 (e ▸ (by decide : main_v2 ∈ Finset.univ.image (Pipeline.arrRef spec1))))]))
  iexact Hrest

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V2 m ρ c)) := entry1 c (V2 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V3 m ρ c) : sProp 𝕄) := exit1 c (V2 m ρ) (V3 m ρ c) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds each unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c)⟩) (run_main m ρ)

end Cert.KernelIdeal.Hand

end
-- ==== Proof.NetSpec.lean ====
/-
  The network both programs compute, one row at a time, on the extended reals.

  A row `xr` of 1024 numbers goes through a linear layer into 512 numbers (`lin1`), a leaky rectifier with slope `a` on the
  negative side (`act`), a normalisation of the 512 numbers to mean zero and variance one with a scale and a shift
  (`hn`: the mean `mean v`, the centred numbers, the mean of their squares, the reciprocal root of that mean plus a
  small constant), a second linear layer into 128 numbers (`zrow`: the first result), and a division by the row's
  Euclidean length, kept away from zero by a floor (`znrow`). The second result pairs rows: entry (r, s) is the inner
  product of the scaled rows r and s (`gram`). Every quotient is `Ideal.div`, every sum a plain finite sum, each literal
  the number its binary pattern denotes; no law of arithmetic is used anywhere, so nothing here asks for finiteness.
  `zMat` and `yMat` read a whole matrix of rows, for any number of rows: an entry depends on one row (`zMat`) or two
  (`yMat`) of the input, which is what lets a block of rows be computed apart from the others.
-/
import Idealize.ShloMosaic.Lib.ValueIdx
import Idealize.ShloMosaic.PureOps.Ideal

noncomputable section

open scoped BigOperators

namespace Cert.Net

open Idealize.ShloMosaic Idealize.ShloMosaic.ValueIdx

/-- The literals of the network: zero, the row length 512, and the two small constants. -/
abbrev lit0 : EReal := Ideal.ofBits .f32 0x00000000#32
abbrev lit512 : EReal := Ideal.ofBits .f32 0x44000000#32
abbrev litEpsNorm : EReal := Ideal.ofBits .f32 0x358637BD#32
abbrev litEpsLen : EReal := Ideal.ofBits .f32 0x322BCC77#32

/-- The weights: two matrices, two bias vectors, the rectifier's slope, the normalisation's scale and shift. -/
structure Weights where
  w1 : Fin 1024 → Fin 512 → EReal
  b1 : Fin 512 → EReal
  a : EReal
  gamma : Fin 512 → EReal
  beta : Fin 512 → EReal
  w2 : Fin 512 → Fin 128 → EReal
  b2 : Fin 128 → EReal

/-- The first linear layer at output `j`. -/
def lin1 (W : Weights) (xr : Fin 1024 → EReal) (j : Fin 512) : EReal := (∑ k : Fin 1024, xr k * W.w1 k j) + W.b1 j

/-- The leaky rectifier: `h` where `h ≥ 0`, `a · h` elsewhere (the comparison is the float comparison `oge`). -/
def act (a h : EReal) : EReal := Scalar.select (FloatOps.cmpf (F := Ideal) (φ := .f32) .oge h lit0) h (a * h)

/-- The rectified first layer of a row. -/
def pre (W : Weights) (xr : Fin 1024 → EReal) (j : Fin 512) : EReal := act W.a (lin1 W xr j)

/-- The mean of 512 numbers: their sum divided by the literal 512. -/
def mean (v : Fin 512 → EReal) : EReal := Ideal.div (∑ j : Fin 512, v j) lit512

/-- The normalised, scaled and shifted row. -/
def hn (W : Weights) (xr : Fin 1024 → EReal) (j : Fin 512) : EReal :=
  ((pre W xr j - mean (pre W xr))
      * Ideal.rsqrt (mean (fun j' => (pre W xr j' - mean (pre W xr)) * (pre W xr j' - mean (pre W xr))) + litEpsNorm))
    * W.gamma j + W.beta j

/-- The second linear layer: the first result's row. -/
def zrow (W : Weights) (xr : Fin 1024 → EReal) (o : Fin 128) : EReal := (∑ j : Fin 512, hn W xr j * W.w2 j o) + W.b2 o

/-- The length of a row of 128 numbers, floored. -/
def len (zr : Fin 128 → EReal) : EReal := max (Ideal.sqrt (∑ o : Fin 128, zr o * zr o)) litEpsLen

/-- The row scaled to unit length. -/
def znrow (W : Weights) (xr : Fin 1024 → EReal) (o : Fin 128) : EReal := Ideal.div (zrow W xr o) (len (zrow W xr))

/-- The inner product of two scaled rows. -/
def gram (W : Weights) (xr xs : Fin 1024 → EReal) : EReal := ∑ o : Fin 128, znrow W xr o * znrow W xs o

/-- Row `p` of an `n × 1024` matrix. -/
def rowOf {n : Nat} (X : (⟨2, ![n, 1024]⟩ : Shape).Idx → EReal) (p : Fin n) : Fin 1024 → EReal := fun k => X (ix2 p k)

/-- The first result for a matrix of rows. -/
def zMat {n : Nat} (W : Weights) (X : (⟨2, ![n, 1024]⟩ : Shape).Idx → EReal) : (⟨2, ![n, 128]⟩ : Shape).Idx → EReal :=
  fun i => zrow W (rowOf X (i 0)) (i 1)

/-- The scaled rows of a matrix of rows. -/
def znMat {n : Nat} (W : Weights) (X : (⟨2, ![n, 1024]⟩ : Shape).Idx → EReal) : (⟨2, ![n, 128]⟩ : Shape).Idx → EReal :=
  fun i => znrow W (rowOf X (i 0)) (i 1)

/-- The second result: all pairs of rows. -/
def yMat {n : Nat} (W : Weights) (X : (⟨2, ![n, 1024]⟩ : Shape).Idx → EReal) : (⟨2, ![n, n]⟩ : Shape).Idx → EReal :=
  fun i => gram W (rowOf X (i 0)) (rowOf X (i 1))

/-- The weights read off the seven weight arrays as the programs hold them. -/
def weightsOf (w1 : (⟨2, ![1024, 512]⟩ : Shape).Idx → EReal) (b1 : (⟨1, ![512]⟩ : Shape).Idx → EReal) (a : EReal)
    (gamma beta : (⟨1, ![512]⟩ : Shape).Idx → EReal) (w2 : (⟨2, ![512, 128]⟩ : Shape).Idx → EReal)
    (b2 : (⟨1, ![128]⟩ : Shape).Idx → EReal) : Weights where
  w1 k j := w1 (ix2 k j)
  b1 j := b1 (ix1 j)
  a := a
  gamma j := gamma (ix1 j)
  beta j := beta (ix1 j)
  w2 j o := w2 (ix2 j o)
  b2 o := b2 (ix1 o)

end Cert.Net

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KernelPayloads.lean ====
/-
  The kernel's arithmetic, read at an index over the extended reals, as the network's row functions.

  The first program computes, for each of its 1024 rows, the first linear layer, the leaky rectifier, the normalisation,
  the second linear layer and the division by the row's length; the second program pairs rows by their inner product.
  Each stage below reads one vector operation (or a short run of them) at an entry (p, j) and finds the stage of the
  network's specification for row p; the three closing theorems chain the stages.
-/
import proofs.«147210_j66846870995045_1_alg».proof.Proof.Gen.KernelIdeal.Skeleton
import proofs.«147210_j66846870995045_1_alg».proof.Proof.NetSpec
import proofs.«147210_j66846870995045_1_alg».proof.Proof.LibColumns
import proofs.«147210_j66846870995045_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! The four coordinate facts of the product `dotY`'s dimension numbers: the operand indices at an output entry and a
    contraction position. -/

theorem dotY_l0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem dotY_l1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem dotY_r0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem dotY_r1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The second program's product: entry (p, q) is the inner product of row p of the first operand and row q of the
    second (the second operand enters transposed). -/
theorem pay_y (a b : FVec Ideal S1024x128 .bf16) (p q : Fin 1024) :
    k1_pay1 (F := Ideal) a b (ix2 p q) = ∑ o : Fin 128, a (ix2 p o) * b (ix2 q o) := by
  unfold k1_pay1
  refine (Cert.PlainDot.matmul_zero_apply dot_S1024x128_S128x1024_S1024x1024_1_0_0_1_n_n rfl rfl
    dotY_l0 dotY_l1 dotY_r0 dotY_r1 none _ _ p q).trans ?_
  refine Finset.sum_congr rfl fun o _ => ?_
  rw [shapeCast_self, shapeCast_self, transpose_ix2_apply]

/-! The four coordinate facts of the product `dotA`'s dimension numbers: the operand indices at an output entry and a
    contraction position. -/

theorem dotA_l0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem dotA_l1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem dotA_r0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem dotA_r1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-! The four coordinate facts of the product `dotB`'s dimension numbers: the operand indices at an output entry and a
    contraction position. -/

theorem dotB_l0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem dotB_l1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem dotB_r0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem dotB_r1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The weights a grid point's loads denote. -/
def weights (v2 : FVec Ideal S1024x512 .f32) (v5 : FVec Ideal S512 .f32) (v9 : FVec Ideal S1 .f32) (v34 v38 : FVec Ideal S512 .f32) (v43 : FVec Ideal S512x128 .f32) (v46 : FVec Ideal S128 .f32) : Cert.Net.Weights :=
  Cert.Net.weightsOf v2 v5 (v9 (ix1 (0 : Fin 1))) v34 v38 v43 v46

/-! ## The stages of the first program, as vector terms -/

/-- A vector of 512 numbers as a row repeated 1024 times. -/
abbrev rowSpread (v : FVec Ideal S512 .f32) : FVec Ideal S1024x512 .f32 :=
  broadcastTo S1024x512 (shapeCast S1x512 v shapeCasts_S512_S1x512) broadcasts_S1x512_S1024x512

/-- A column of 1024 numbers repeated over 512 columns. -/
abbrev colSpread (v : FVec Ideal S1024x1 .f32) : FVec Ideal S1024x512 .f32 :=
  broadcastTo S1024x512 v broadcasts_S1024x1_S1024x512

/-- The first linear layer: the product of the inputs with the first weight matrix, plus the bias row. -/
abbrev linV (v0 : FVec Ideal S1024x1024 .f32) (v2 : FVec Ideal S1024x512 .f32) (v5 : FVec Ideal S512 .f32) : FVec Ideal S1024x512 .f32 :=
  addf (F := Ideal) (matmul (F := Ideal) dot_S1024x1024_S1024x512_S1024x512_1_0_0_1_n_n none
      (truncf (F := Ideal) .bf16 v0 bitsLt_bf16_f32) (truncf (F := Ideal) .bf16 v2 bitsLt_bf16_f32)
      (constant (F := Ideal) S1024x512 .f32 0x00000000#32)) (rowSpread v5)

/-- The leaky rectifier: the entry where it is at least zero, the slope times the entry elsewhere. -/
abbrev rectV (v8 : FVec Ideal S1024x512 .f32) (v9 : FVec Ideal S1 .f32) : FVec Ideal S1024x512 .f32 :=
  select (cmpf (F := Ideal) .oge v8 (broadcast S1024x512 (Scalar.ofBits (F := Ideal) .f32 0x00000000#32))) v8
    (mulf (F := Ideal) (broadcast S1024x512 (extractAt ![0] v9 inpos_S1_p0)) v8)

/-- The row means as a column: the row sums divided by the literal 512. -/
abbrev meanV (v : FVec Ideal S1024x512 .f32) : FVec Ideal S1024x1 .f32 :=
  divf (F := Ideal) (shapeCast S1024x1
      (multiReduction (F := Ideal) .add [1] S1024 v 0x00000000#32 reduces_S1024x512_S1024 (.inl rfl) rfl) shapeCasts_S1024_S1024x1)
    (broadcast S1024x1 (Scalar.ofBits (F := Ideal) .f32 0x44000000#32))

/-- The entries less their row's mean. -/
abbrev centV (v : FVec Ideal S1024x512 .f32) : FVec Ideal S1024x512 .f32 :=
  subf (F := Ideal) v (colSpread (meanV v))

/-- The reciprocal root of the rows' variance plus the small constant, as a column. -/
abbrev rstdV (v : FVec Ideal S1024x512 .f32) : FVec Ideal S1024x1 .f32 :=
  rsqrt (F := Ideal) (addf (F := Ideal) (meanV (mulf (F := Ideal) (centV v) (centV v)))
    (broadcast S1024x1 (Scalar.ofBits (F := Ideal) .f32 0x358637BD#32)))

/-- The normalised rows, scaled and shifted. -/
abbrev normV (v : FVec Ideal S1024x512 .f32) (v34 v38 : FVec Ideal S512 .f32) : FVec Ideal S1024x512 .f32 :=
  addf (F := Ideal) (mulf (F := Ideal) (mulf (F := Ideal) (centV v) (colSpread (rstdV v))) (rowSpread v34)) (rowSpread v38)

/-- The first payload is the normalised rectified first layer (narrowing is the identity on the extended reals' side). -/
theorem pay3_eq (v0 : FVec Ideal S1024x1024 .f32) (v2 : FVec Ideal S1024x512 .f32) (v5 : FVec Ideal S512 .f32) (v9 : FVec Ideal S1 .f32) (v34 v38 : FVec Ideal S512 .f32) :
    k0_pay3 (F := Ideal) v0 v2 v5 v9 v34 v38 = truncf (F := Ideal) .bf16 (normV (rectV (linV v0 v2 v5) v9) v34 v38) bitsLt_bf16_f32 := rfl

/-! ## Each stage read at an entry -/

/-- A row spread over 1024 rows reads, at (p, j), the row's entry j. -/
theorem rowSpread_apply (v : FVec Ideal S512 .f32) (p : Fin 1024) (j : Fin 512) : rowSpread v (ix2 p j) = v (ix1 j) :=
  (broadcastTo_1b_ab_apply _ broadcasts_S1x512_S1024x512 p j).trans (shapeCast_a_1a_apply v shapeCasts_S512_S1x512 0 j)

/-- A column spread over 512 columns reads, at (p, j), the column's entry p. -/
theorem colSpread_apply (v : FVec Ideal S1024x1 .f32) (p : Fin 1024) (j : Fin 512) : colSpread v (ix2 p j) = v (ix2 p (0 : Fin 1)) :=
  Cert.LibColumns.broadcastTo_a1_ab_apply v broadcasts_S1024x1_S1024x512 p j

/-- The first linear layer at (p, j). -/
theorem linV_apply (v0 : FVec Ideal S1024x1024 .f32) (v2 : FVec Ideal S1024x512 .f32) (v5 : FVec Ideal S512 .f32) (p : Fin 1024) (j : Fin 512) :
    linV v0 v2 v5 (ix2 p j) = (∑ k : Fin 1024, v0 (ix2 p k) * v2 (ix2 k j)) + v5 (ix1 j) := by
  refine congrArg₂ (· + ·) ?_ (rowSpread_apply v5 p j)
  exact Cert.PlainDot.matmul_zero_apply dot_S1024x1024_S1024x512_S1024x512_1_0_0_1_n_n rfl rfl
    dotA_l0 dotA_l1 dotA_r0 dotA_r1 none _ _ p j

/-- The rectifier at (p, j). -/
theorem rectV_apply (v8 : FVec Ideal S1024x512 .f32) (v9 : FVec Ideal S1 .f32) (p : Fin 1024) (j : Fin 512) :
    rectV v8 v9 (ix2 p j) = Cert.Net.act (v9 (ix1 (0 : Fin 1))) (v8 (ix2 p j)) := by
  have e : extractAt ![0] v9 inpos_S1_p0 = v9 (ix1 (0 : Fin 1)) :=
    congrArg v9 (funext fun a => match a with | ⟨0, _⟩ => rfl)
  show Scalar.select _ (v8 (ix2 p j)) (extractAt ![0] v9 inpos_S1_p0 * v8 (ix2 p j)) = _
  rw [e]
  rfl

/-- The row means at (p, z): the mean of row p. -/
theorem meanV_apply (v : FVec Ideal S1024x512 .f32) (p : Fin 1024) (z : Fin 1) :
    meanV v (ix2 p z) = Cert.Net.mean (fun j => v (ix2 p j)) := by
  show Ideal.div _ _ = Ideal.div _ _
  refine congrArg₂ Ideal.div ?_ rfl
  exact (Cert.LibColumns.shapeCast_a_a1_apply _ shapeCasts_S1024_S1024x1 p z).trans
    (Cert.LibColumns.rowSum_apply v _ reduces_S1024x512_S1024 (.inl rfl) rfl p)

/-- The centred entries at (p, j). -/
theorem centV_apply (v : FVec Ideal S1024x512 .f32) (p : Fin 1024) (j : Fin 512) :
    centV v (ix2 p j) = v (ix2 p j) - Cert.Net.mean (fun j' => v (ix2 p j')) := by
  show v (ix2 p j) - colSpread (meanV v) (ix2 p j) = _
  exact congrArg (v (ix2 p j) - ·) ((colSpread_apply _ p j).trans (meanV_apply v p 0))

/-- The reciprocal root of row p's variance plus the small constant. -/
theorem rstdV_apply (v : FVec Ideal S1024x512 .f32) (p : Fin 1024) (z : Fin 1) :
    rstdV v (ix2 p z) = Ideal.rsqrt (Cert.Net.mean (fun j' =>
        (v (ix2 p j') - Cert.Net.mean (fun j'' => v (ix2 p j''))) * (v (ix2 p j') - Cert.Net.mean (fun j'' => v (ix2 p j''))))
      + Cert.Net.litEpsNorm) := by
  show Ideal.rsqrt (meanV (mulf (F := Ideal) (centV v) (centV v)) (ix2 p z) + _) = _
  refine congrArg (fun t => Ideal.rsqrt (t + _)) ?_
  refine (meanV_apply _ p z).trans (congrArg Cert.Net.mean (funext fun j' => ?_))
  show centV v (ix2 p j') * centV v (ix2 p j') = _
  rw [centV_apply]

/-- The normalised, scaled and shifted entry at (p, j). -/
theorem normV_apply (v : FVec Ideal S1024x512 .f32) (v34 v38 : FVec Ideal S512 .f32) (p : Fin 1024) (j : Fin 512) :
    normV v v34 v38 (ix2 p j) =
      ((v (ix2 p j) - Cert.Net.mean (fun j' => v (ix2 p j')))
        * Ideal.rsqrt (Cert.Net.mean (fun j' =>
            (v (ix2 p j') - Cert.Net.mean (fun j'' => v (ix2 p j''))) * (v (ix2 p j') - Cert.Net.mean (fun j'' => v (ix2 p j''))))
          + Cert.Net.litEpsNorm))
      * v34 (ix1 j) + v38 (ix1 j) := by
  show centV v (ix2 p j) * colSpread (rstdV v) (ix2 p j) * rowSpread v34 (ix2 p j) + rowSpread v38 (ix2 p j) = _
  rw [centV_apply, colSpread_apply, rstdV_apply, rowSpread_apply, rowSpread_apply]

/-- The first payload at (p, j): the normalised row of the specification. -/
theorem pay3_apply (v0 : FVec Ideal S1024x1024 .f32) (v2 : FVec Ideal S1024x512 .f32) (v5 : FVec Ideal S512 .f32) (v9 : FVec Ideal S1 .f32) (v34 v38 : FVec Ideal S512 .f32) (v43 : FVec Ideal S512x128 .f32) (v46 : FVec Ideal S128 .f32) (p : Fin 1024) (j : Fin 512) :
    k0_pay3 (F := Ideal) v0 v2 v5 v9 v34 v38 (ix2 p j) = Cert.Net.hn (weights v2 v5 v9 v34 v38 v43 v46) (Cert.Net.rowOf v0 p) j := by
  have hV : ∀ j' : Fin 512, rectV (linV v0 v2 v5) v9 (ix2 p j') = Cert.Net.pre (weights v2 v5 v9 v34 v38 v43 v46) (Cert.Net.rowOf v0 p) j' :=
    fun j' => (rectV_apply _ v9 p j').trans (congrArg (Cert.Net.act _) (linV_apply v0 v2 v5 p j'))
  rw [pay3_eq]
  show normV (rectV (linV v0 v2 v5) v9) v34 v38 (ix2 p j) = _
  refine (normV_apply _ v34 v38 p j).trans ?_
  simp only [hV]
  rfl

/-! ## The second linear layer and the division by the row's length -/

/-- The second linear layer at (p, o), whatever its first operand. -/
theorem pay1_apply (v42 : FVec Ideal S1024x512 .bf16) (v43 : FVec Ideal S512x128 .f32) (v46 : FVec Ideal S128 .f32) (p : Fin 1024) (o : Fin 128) :
    k0_pay1 (F := Ideal) v42 v43 v46 (ix2 p o) = (∑ j : Fin 512, v42 (ix2 p j) * v43 (ix2 j o)) + v46 (ix1 o) := by
  unfold k0_pay1
  refine congrArg₂ (· + ·) ?_ ?_
  · exact Cert.PlainDot.matmul_zero_apply dot_S1024x512_S512x128_S1024x128_1_0_0_1_n_n rfl rfl
      dotB_l0 dotB_l1 dotB_r0 dotB_r1 none _ _ p o
  · exact (broadcastTo_1b_ab_apply _ broadcasts_S1x128_S1024x128 p o).trans
      (shapeCast_a_1a_apply v46 shapeCasts_S128_S1x128 0 o)

/-- The first result at (p, o): the specification's row p, entry o. -/
theorem pay_z (v0 : FVec Ideal S1024x1024 .f32) (v2 : FVec Ideal S1024x512 .f32) (v5 : FVec Ideal S512 .f32) (v9 : FVec Ideal S1 .f32) (v34 v38 : FVec Ideal S512 .f32) (v43 : FVec Ideal S512x128 .f32) (v46 : FVec Ideal S128 .f32) (p : Fin 1024) (o : Fin 128) :
    k0_pay1 (F := Ideal) (k0_pay3 (F := Ideal) v0 v2 v5 v9 v34 v38) v43 v46 (ix2 p o) = Cert.Net.zrow (weights v2 v5 v9 v34 v38 v43 v46) (Cert.Net.rowOf v0 p) o := by
  refine (pay1_apply _ v43 v46 p o).trans ?_
  refine congrArg₂ (· + ·) (Finset.sum_congr rfl fun j _ => ?_) rfl
  exact congrArg (· * v43 (ix2 j o)) (pay3_apply v0 v2 v5 v9 v34 v38 v43 v46 p j)

/-- The rows' lengths as a column: the root of the row sums of squares, floored by the small constant. -/
abbrev lenV (z : FVec Ideal S1024x128 .f32) : FVec Ideal S1024x1 .f32 :=
  maximumf (F := Ideal) (sqrt (F := Ideal) (shapeCast S1024x1
      (multiReduction (F := Ideal) .add [1] S1024 (mulf (F := Ideal) z z) 0x00000000#32 reduces_S1024x128_S1024 (.inl rfl) rfl)
      shapeCasts_S1024_S1024x1))
    (broadcast S1024x1 (Scalar.ofBits (F := Ideal) .f32 0x322BCC77#32))

/-- The length column at (p, z): the floored length of row p. -/
theorem lenV_apply (z : FVec Ideal S1024x128 .f32) (p : Fin 1024) (u : Fin 1) :
    lenV z (ix2 p u) = Cert.Net.len (fun o => z (ix2 p o)) := by
  show max (Ideal.sqrt _) _ = max (Ideal.sqrt _) _
  refine congrArg (fun t => max (Ideal.sqrt t) _) ?_
  exact (Cert.LibColumns.shapeCast_a_a1_apply _ shapeCasts_S1024_S1024x1 p u).trans
    (Cert.LibColumns.rowSum_apply (mulf (F := Ideal) z z) _ reduces_S1024x128_S1024 (.inl rfl) rfl p)

/-- The second payload is the first result divided by its rows' lengths (narrowing is the identity here). -/
theorem pay2_eq (v42 : FVec Ideal S1024x512 .bf16) (v43 : FVec Ideal S512x128 .f32) (v46 : FVec Ideal S128 .f32) :
    k0_pay2 (F := Ideal) v42 v43 v46 = truncf (F := Ideal) .bf16 (divf (F := Ideal) (k0_pay1 (F := Ideal) v42 v43 v46)
      (broadcastTo S1024x128 (lenV (k0_pay1 (F := Ideal) v42 v43 v46)) broadcasts_S1024x1_S1024x128)) bitsLt_bf16_f32 := rfl

/-- The second payload at (p, o), over the first result's row p. -/
theorem pay2_apply (v42 : FVec Ideal S1024x512 .bf16) (v43 : FVec Ideal S512x128 .f32) (v46 : FVec Ideal S128 .f32) (p : Fin 1024) (o : Fin 128) :
    k0_pay2 (F := Ideal) v42 v43 v46 (ix2 p o)
      = Ideal.div (k0_pay1 (F := Ideal) v42 v43 v46 (ix2 p o)) (Cert.Net.len (fun o' => k0_pay1 (F := Ideal) v42 v43 v46 (ix2 p o'))) := by
  rw [pay2_eq]
  show Ideal.div _ (broadcastTo S1024x128 (lenV (k0_pay1 (F := Ideal) v42 v43 v46)) broadcasts_S1024x1_S1024x128 (ix2 p o)) = _
  exact congrArg (Ideal.div _) ((Cert.LibColumns.broadcastTo_a1_ab_apply _ broadcasts_S1024x1_S1024x128 p o).trans
    (lenV_apply _ p 0))

/-- The scaled rows at (p, o): the specification's row p divided by its length, entry o. -/
theorem pay_zn (v0 : FVec Ideal S1024x1024 .f32) (v2 : FVec Ideal S1024x512 .f32) (v5 : FVec Ideal S512 .f32) (v9 : FVec Ideal S1 .f32) (v34 v38 : FVec Ideal S512 .f32) (v43 : FVec Ideal S512x128 .f32) (v46 : FVec Ideal S128 .f32) (p : Fin 1024) (o : Fin 128) :
    k0_pay2 (F := Ideal) (k0_pay3 (F := Ideal) v0 v2 v5 v9 v34 v38) v43 v46 (ix2 p o) = Cert.Net.znrow (weights v2 v5 v9 v34 v38 v43 v46) (Cert.Net.rowOf v0 p) o := by
  refine (pay2_apply _ v43 v46 p o).trans ?_
  have hrow : (fun o' => k0_pay1 (F := Ideal) (k0_pay3 (F := Ideal) v0 v2 v5 v9 v34 v38) v43 v46 (ix2 p o'))
      = Cert.Net.zrow (weights v2 v5 v9 v34 v38 v43 v46) (Cert.Net.rowOf v0 p) :=
    funext fun o' => pay_z v0 v2 v5 v9 v34 v38 v43 v46 p o'
  exact congrArg₂ Ideal.div (pay_z v0 v2 v5 v9 v34 v38 v43 v46 p o) (congrArg Cert.Net.len hrow)

end Cert.KernelIdeal.Pay

end
-- ==== Proof.KernelRows.lean ====
/-
  The first kernel region's two result arrays, entry by entry, as the network's rows.

  The region's eight points each take 1024 rows of the input and the whole of every weight array; a point's block of
  each result is the second layer (and its rows divided by their lengths) of those 1024 rows, so entry (r, o) of a
  result array is written by point r / 1024 from row r of the input, and the blocks together fill the array. The
  slope reaches the region through a one-entry array that a reshape of the rank-0 argument wrote.
-/
import proofs.«147210_j66846870995045_1_alg».proof.Proof.KiRun
import proofs.«147210_j66846870995045_1_alg».proof.Proof.KernelPayloads
import proofs.«147210_j66846870995045_1_alg».proof.Proof.NetSpec
import Idealize.ShloMosaic.Lib.Pipeline.Value
import Idealize.ShloMosaic.Lib.ValueIdx
import Idealize.ShloMosaic.Lib.StableHlo.Run

noncomputable section

namespace Cert.KernelIdeal.HandValue

open Cert.KernelIdeal Cert.KernelIdeal.Gen Cert.KernelIdeal.Hand Idealize.ShloMosaic Idealize.ShloMosaic.TcCoe Idealize.ShloMosaic.ValueIdx Idealize.SL.Sem

/-- The weights the launch memory holds on core c. -/
def weightsAt (m : (ℓ : Loc nD τ sig) → Buf (Elt Ideal) ℓ) (c : Dev nD) : Cert.Net.Weights :=
  Cert.Net.weightsOf (m ((c : Thread nD τ).loc main_arg1)) (m ((c : Thread nD τ).loc main_arg2)) (m ((c : Thread nD τ).loc main_arg3) ix0) (m ((c : Thread nD τ).loc main_arg4)) (m ((c : Thread nD τ).loc main_arg5)) (m ((c : Thread nD τ).loc main_arg6)) (m ((c : Thread nD τ).loc main_arg7))

theorem zeros2 : (![0, 0] : Fin 2 → Nat) = fun _ => 0 := funext fun a => by fin_cases a <;> rfl
theorem zeros1 : (![0] : Fin 1 → Nat) = fun _ => 0 := funext fun a => by fin_cases a; rfl

/-- The index maps over the grid: the input rows' and the two results' blocks move with the point, every weight
    array's block stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 1) = 0 ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

section Blocks

variable (V : (c : Dev nD) → (b : Ref sig .tc) → Buf (Elt Ideal) ((c : Thread nD τ).loc b)) (c : Dev nD)

/-- The input window's block at point t holds rows 1024 t … 1024 t + 1023 of the input. -/
theorem blk0_apply (t : Fin cfg0.N) (p k : Fin 1024) (row : Fin 8192) (hrow : row.val = t.val * 1024 + p.val) :
    (iblk0 (F := Ideal) V c 0 t : S1024x1024.Idx → EReal) (ix2 p k) = (V c main_arg0 : S8192x1024.Idx → EReal) (ix2 row k) := by
  obtain ⟨a00, a01, -⟩ := idx_facts t
  unfold iblk0
  rw [View.read_apply]
  show (V c main_arg0 : S8192x1024.Idx → EReal) _ = (V c main_arg0 : S8192x1024.Idx → EReal) (ix2 row k)
  refine congrArg (V c main_arg0 : S8192x1024.Idx → EReal) (funext fun a => Fin.ext ?_)
  match a with
  | ⟨0, _⟩ => show win0_0.index t (0 : Fin 2) * 1024 + 1 * p.val = row.val; omega
  | ⟨1, _⟩ => show win0_0.index t (1 : Fin 2) * 1024 + 1 * k.val = k.val; omega

/-- Window 1's block is its whole array at every point. -/
theorem blk1_eq (t : Fin cfg0.N) : (iblk0 (F := Ideal) V c 1 t : S1024x512.Idx → EReal) = (V c main_arg1 : S1024x512.Idx → EReal) := by
  obtain ⟨-, -, a10, a11, a20, a30, a40, a50, a60, a61, a70, -, -, -, -⟩ := idx_facts t
  funext x
  unfold iblk0
  rw [View.read_apply]
  show (V c main_arg1 : S1024x512.Idx → EReal) _ = (V c main_arg1 : S1024x512.Idx → EReal) x
  refine congrArg (V c main_arg1 : S1024x512.Idx → EReal) (funext fun a => Fin.ext ?_)
  match a with
  | ⟨0, _⟩ => show win0_1.index t (0 : Fin 2) * 1024 + 1 * (x 0).val = (x 0).val; omega
  | ⟨1, _⟩ => show win0_1.index t (1 : Fin 2) * 512 + 1 * (x 1).val = (x 1).val; omega

/-- Window 2's block is its whole array at every point. -/
theorem blk2_eq (t : Fin cfg0.N) : (iblk0 (F := Ideal) V c 2 t : S512.Idx → EReal) = (V c main_arg2 : S512.Idx → EReal) := by
  obtain ⟨-, -, a10, a11, a20, a30, a40, a50, a60, a61, a70, -, -, -, -⟩ := idx_facts t
  funext x
  unfold iblk0
  rw [View.read_apply]
  show (V c main_arg2 : S512.Idx → EReal) _ = (V c main_arg2 : S512.Idx → EReal) x
  refine congrArg (V c main_arg2 : S512.Idx → EReal) (funext fun a => Fin.ext ?_)
  match a with
  | ⟨0, _⟩ => show win0_2.index t (0 : Fin 1) * 512 + 1 * (x 0).val = (x 0).val; omega

/-- Window 3's block is its whole array at every point. -/
theorem blk3_eq (t : Fin cfg0.N) : (iblk0 (F := Ideal) V c 3 t : S1.Idx → EReal) = (V c main_v0 : S1.Idx → EReal) := by
  obtain ⟨-, -, a10, a11, a20, a30, a40, a50, a60, a61, a70, -, -, -, -⟩ := idx_facts t
  funext x
  unfold iblk0
  rw [View.read_apply]
  show (V c main_v0 : S1.Idx → EReal) _ = (V c main_v0 : S1.Idx → EReal) x
  refine congrArg (V c main_v0 : S1.Idx → EReal) (funext fun a => Fin.ext ?_)
  match a with
  | ⟨0, _⟩ => show win0_3.index t (0 : Fin 1) * 1 + 1 * (x 0).val = (x 0).val; omega

/-- Window 4's block is its whole array at every point. -/
theorem blk4_eq (t : Fin cfg0.N) : (iblk0 (F := Ideal) V c 4 t : S512.Idx → EReal) = (V c main_arg4 : S512.Idx → EReal) := by
  obtain ⟨-, -, a10, a11, a20, a30, a40, a50, a60, a61, a70, -, -, -, -⟩ := idx_facts t
  funext x
  unfold iblk0
  rw [View.read_apply]
  show (V c main_arg4 : S512.Idx → EReal) _ = (V c main_arg4 : S512.Idx → EReal) x
  refine congrArg (V c main_arg4 : S512.Idx → EReal) (funext fun a => Fin.ext ?_)
  match a with
  | ⟨0, _⟩ => show win0_4.index t (0 : Fin 1) * 512 + 1 * (x 0).val = (x 0).val; omega

/-- Window 5's block is its whole array at every point. -/
theorem blk5_eq (t : Fin cfg0.N) : (iblk0 (F := Ideal) V c 5 t : S512.Idx → EReal) = (V c main_arg5 : S512.Idx → EReal) := by
  obtain ⟨-, -, a10, a11, a20, a30, a40, a50, a60, a61, a70, -, -, -, -⟩ := idx_facts t
  funext x
  unfold iblk0
  rw [View.read_apply]
  show (V c main_arg5 : S512.Idx → EReal) _ = (V c main_arg5 : S512.Idx → EReal) x
  refine congrArg (V c main_arg5 : S512.Idx → EReal) (funext fun a => Fin.ext ?_)
  match a with
  | ⟨0, _⟩ => show win0_5.index t (0 : Fin 1) * 512 + 1 * (x 0).val = (x 0).val; omega

/-- Window 6's block is its whole array at every point. -/
theorem blk6_eq (t : Fin cfg0.N) : (iblk0 (F := Ideal) V c 6 t : S512x128.Idx → EReal) = (V c main_arg6 : S512x128.Idx → EReal) := by
  obtain ⟨-, -, a10, a11, a20, a30, a40, a50, a60, a61, a70, -, -, -, -⟩ := idx_facts t
  funext x
  unfold iblk0
  rw [View.read_apply]
  show (V c main_arg6 : S512x128.Idx → EReal) _ = (V c main_arg6 : S512x128.Idx → EReal) x
  refine congrArg (V c main_arg6 : S512x128.Idx → EReal) (funext fun a => Fin.ext ?_)
  match a with
  | ⟨0, _⟩ => show win0_6.index t (0 : Fin 2) * 512 + 1 * (x 0).val = (x 0).val; omega
  | ⟨1, _⟩ => show win0_6.index t (1 : Fin 2) * 128 + 1 * (x 1).val = (x 1).val; omega

/-- Window 7's block is its whole array at every point. -/
theorem blk7_eq (t : Fin cfg0.N) : (iblk0 (F := Ideal) V c 7 t : S128.Idx → EReal) = (V c main_arg7 : S128.Idx → EReal) := by
  obtain ⟨-, -, a10, a11, a20, a30, a40, a50, a60, a61, a70, -, -, -, -⟩ := idx_facts t
  funext x
  unfold iblk0
  rw [View.read_apply]
  show (V c main_arg7 : S128.Idx → EReal) _ = (V c main_arg7 : S128.Idx → EReal) x
  refine congrArg (V c main_arg7 : S128.Idx → EReal) (funext fun a => Fin.ext ?_)
  match a with
  | ⟨0, _⟩ => show win0_7.index t (0 : Fin 1) * 128 + 1 * (x 0).val = (x 0).val; omega

end Blocks

section Run

variable (m : (ℓ : Loc nD τ sig) → Buf (Elt Ideal) ℓ) (ρ : Dev nD → PrngReg)

/-- An array the reshape does not write is the launch memory's. -/
theorem V1_arg (c : Dev nD) (b : Ref sig .tc) (h : b ∉ (hostOps0_W : List (Ref sig .tc))) :
    Hand.V1 m ρ c b = m ((c : Thread nD τ).loc b) := (W1_of m ρ c b h).trans rfl

/-- The one-entry array the reshape wrote holds the slope. -/
theorem slope_eq (c : Dev nD) :
    (Hand.V1 m ρ c main_v0 : S1.Idx → EReal) (ix1 (0 : Fin 1)) = (m ((c : Thread nD τ).loc main_arg3) : S_.Idx → EReal) ix0 := by
  have e : StableHlo.after (hostOps0 (F := Ideal)) (W0 m ρ c) (Proc.devRef .tc main_v0)
      = fun i => shapeCast S1 (W0 m ρ c (Proc.devRef .tc main_arg3) : S_.Idx → EReal) shapeCasts_S_S1 i := by
    after_results; rfl
  show StableHlo.after (hostOps0 (F := Ideal)) (W0 m ρ c) (Proc.devRef .tc main_v0) (ix1 (0 : Fin 1)) = _
  rw [e]
  unfold shapeCast
  exact congrArg (m ((c : Thread nD τ).loc main_arg3) : S_.Idx → EReal) (eq_ix0 _)

/-- The weights a point's loaded blocks denote are the launch memory's. -/
theorem weights_eq (c : Dev nD) (t : Fin cfg0.N) :
    Cert.KernelIdeal.Pay.weights (iblk0 (F := Ideal) (Hand.V1 m ρ) c 1 t) (iblk0 (F := Ideal) (Hand.V1 m ρ) c 2 t) (iblk0 (F := Ideal) (Hand.V1 m ρ) c 3 t) (iblk0 (F := Ideal) (Hand.V1 m ρ) c 4 t) (iblk0 (F := Ideal) (Hand.V1 m ρ) c 5 t) (iblk0 (F := Ideal) (Hand.V1 m ρ) c 6 t) (iblk0 (F := Ideal) (Hand.V1 m ρ) c 7 t)
      = weightsAt m c := by
  unfold Cert.KernelIdeal.Pay.weights weightsAt
  rw [blk1_eq, blk2_eq, blk3_eq, blk4_eq, blk5_eq, blk6_eq, blk7_eq, slope_eq,
    V1_arg m ρ c main_arg1 (by decide), V1_arg m ρ c main_arg2 (by decide), V1_arg m ρ c main_arg4 (by decide),
    V1_arg m ρ c main_arg5 (by decide), V1_arg m ρ c main_arg6 (by decide), V1_arg m ρ c main_arg7 (by decide)]

end Run

/-! ## One entry of a point's block -/

/-- Entry j of a point's first result, when the point's input block is rows 1024 tv … of the input and its weight blocks are the weights W, is the second layer of the input's row at the entry's place in the array. -/
theorem point_z (W : Cert.Net.Weights) (x0 : S8192x1024.Idx → EReal) (X0 : FVec Ideal S1024x1024 .f32) (X1 : FVec Ideal S1024x512 .f32) (X2 : FVec Ideal S512 .f32) (X3 : FVec Ideal S1 .f32) (X4 X5 : FVec Ideal S512 .f32) (X6 : FVec Ideal S512x128 .f32) (X7 : FVec Ideal S128 .f32)
    (tv : Nat) (hW : Cert.KernelIdeal.Pay.weights X1 X2 X3 X4 X5 X6 X7 = W)
    (h0 : ∀ (p k : Fin 1024) (row : Fin 8192), row.val = tv * 1024 + p.val → X0 (ix2 p k) = x0 (ix2 row k))
    (j : S1024x128.Idx) (i : S8192x128.Idx) (hi0 : (i 0).val = tv * 1024 + (j 0).val) (hi1 : (i 1).val = (j 1).val) :
    k0_pay1 (F := Ideal) (k0_pay3 (F := Ideal) X0 X1 X2 X3 X4 X5) X6 X7 j = Cert.Net.zrow W (Cert.Net.rowOf x0 (i 0)) (i 1) := by
  obtain ⟨p, o, rfl⟩ : ∃ (p : Fin 1024) (o : Fin 128), j = ix2 p o := ⟨j 0, j 1, eq_ix2 j⟩
  rw [Cert.KernelIdeal.Pay.pay_z, hW, show i 1 = o from Fin.ext hi1]
  exact congrArg (fun xr => Cert.Net.zrow W xr o) (funext fun k => h0 p k (i 0) hi0)

/-- Entry j of a point's second result, under the same hypotheses, is the row of unit length at the entry's place in the array. -/
theorem point_zn (W : Cert.Net.Weights) (x0 : S8192x1024.Idx → EReal) (X0 : FVec Ideal S1024x1024 .f32) (X1 : FVec Ideal S1024x512 .f32) (X2 : FVec Ideal S512 .f32) (X3 : FVec Ideal S1 .f32) (X4 X5 : FVec Ideal S512 .f32) (X6 : FVec Ideal S512x128 .f32) (X7 : FVec Ideal S128 .f32)
    (tv : Nat) (hW : Cert.KernelIdeal.Pay.weights X1 X2 X3 X4 X5 X6 X7 = W)
    (h0 : ∀ (p k : Fin 1024) (row : Fin 8192), row.val = tv * 1024 + p.val → X0 (ix2 p k) = x0 (ix2 row k))
    (j : S1024x128.Idx) (i : S8192x128.Idx) (hi0 : (i 0).val = tv * 1024 + (j 0).val) (hi1 : (i 1).val = (j 1).val) :
    k0_pay2 (F := Ideal) (k0_pay3 (F := Ideal) X0 X1 X2 X3 X4 X5) X6 X7 j = Cert.Net.znrow W (Cert.Net.rowOf x0 (i 0)) (i 1) := by
  obtain ⟨p, o, rfl⟩ : ∃ (p : Fin 1024) (o : Fin 128), j = ix2 p o := ⟨j 0, j 1, eq_ix2 j⟩
  rw [Cert.KernelIdeal.Pay.pay_zn, hW, show i 1 = o from Fin.ext hi1]
  exact congrArg (fun xr => Cert.Net.znrow W xr o) (funext fun k => h0 p k (i 0) hi0)

section Run

variable (m : (ℓ : Loc nD τ sig) → Buf (Elt Ideal) ℓ) (ρ : Dev nD → PrngReg)

/-- The first result array as the network gives it: the second layer of each input row. -/
abbrev Gz (c : Dev nD) : S8192x128.Idx → EReal :=
  fun i => Cert.Net.zrow (weightsAt m c) (Cert.Net.rowOf (m ((c : Thread nD τ).loc main_arg0)) (i 0)) (i 1)

/-- The second result array as the network gives it: each such row divided by its length. -/
abbrev Gzn (c : Dev nD) : S8192x128.Idx → EReal :=
  fun i => Cert.Net.znrow (weightsAt m c) (Cert.Net.rowOf (m ((c : Thread nD τ).loc main_arg0)) (i 0)) (i 1)

/-- What point t writes back to result one is block t of the network's rows. -/
theorem flushed8_eq (c : Dev nD) (t : Fin cfg0.N) :
    (dat0 (F := Ideal) (Hand.V1 m ρ) c).flushed 8 t = ((cfg0.win 8).blk t).view.read (Elt Ideal) (Gz m c) := by
  show (cfg0.win 8).cut (grid0.coords t) ((dat0 (F := Ideal) (Hand.V1 m ρ) c).after 8 t) = _
  rw [after0_8]
  unfold out0_8
  rw [View.canon_unit_zero zeros2]
  simp only [View.ld_unit_zero (S := S1024x1024) zeros2, View.ld_unit_zero (S := S1024x512) zeros2, View.ld_unit_zero (S := S512) zeros1,
    View.ld_unit_zero (S := S1) zeros1, View.ld_unit_zero (S := S512x128) zeros2, View.ld_unit_zero (S := S128) zeros1]
  obtain ⟨-, -, -, -, -, -, -, -, -, -, -, e80, e81, e90, e91⟩ := idx_facts t
  funext j
  show k0_pay1 (F := Ideal) (k0_pay3 (F := Ideal) (iblk0 (F := Ideal) (Hand.V1 m ρ) c 0 t) (iblk0 (F := Ideal) (Hand.V1 m ρ) c 1 t) (iblk0 (F := Ideal) (Hand.V1 m ρ) c 2 t) (iblk0 (F := Ideal) (Hand.V1 m ρ) c 3 t) (iblk0 (F := Ideal) (Hand.V1 m ρ) c 4 t) (iblk0 (F := Ideal) (Hand.V1 m ρ) c 5 t)) (iblk0 (F := Ideal) (Hand.V1 m ρ) c 6 t) (iblk0 (F := Ideal) (Hand.V1 m ρ) c 7 t) j
      = Gz m c (((cfg0.win 8).blk t).view.emb j)
  refine point_z (weightsAt m c) (m ((c : Thread nD τ).loc main_arg0)) _ _ _ _ _ _ _ _ t.val (weights_eq m ρ c t)
    (fun p k row hrow => ?_) j (((cfg0.win 8).blk t).view.emb j) ?_ ?_
  · rw [blk0_apply (Hand.V1 m ρ) c t p k row hrow, V1_arg m ρ c main_arg0 (by decide)]
  · show win0_8.index t (0 : Fin 2) * 1024 + 1 * (j 0).val = t.val * 1024 + (j 0).val; omega
  · show win0_8.index t (1 : Fin 2) * 128 + 1 * (j 1).val = (j 1).val; omega

/-- What point t writes back to result two is block t of the network's rows. -/
theorem flushed9_eq (c : Dev nD) (t : Fin cfg0.N) :
    (dat0 (F := Ideal) (Hand.V1 m ρ) c).flushed 9 t = ((cfg0.win 9).blk t).view.read (Elt Ideal) (Gzn m c) := by
  show (cfg0.win 9).cut (grid0.coords t) ((dat0 (F := Ideal) (Hand.V1 m ρ) c).after 9 t) = _
  rw [after0_9]
  unfold out0_9
  rw [View.canon_unit_zero zeros2]
  simp only [View.ld_unit_zero (S := S1024x1024) zeros2, View.ld_unit_zero (S := S1024x512) zeros2, View.ld_unit_zero (S := S512) zeros1,
    View.ld_unit_zero (S := S1) zeros1, View.ld_unit_zero (S := S512x128) zeros2, View.ld_unit_zero (S := S128) zeros1]
  obtain ⟨-, -, -, -, -, -, -, -, -, -, -, e80, e81, e90, e91⟩ := idx_facts t
  funext j
  show k0_pay2 (F := Ideal) (k0_pay3 (F := Ideal) (iblk0 (F := Ideal) (Hand.V1 m ρ) c 0 t) (iblk0 (F := Ideal) (Hand.V1 m ρ) c 1 t) (iblk0 (F := Ideal) (Hand.V1 m ρ) c 2 t) (iblk0 (F := Ideal) (Hand.V1 m ρ) c 3 t) (iblk0 (F := Ideal) (Hand.V1 m ρ) c 4 t) (iblk0 (F := Ideal) (Hand.V1 m ρ) c 5 t)) (iblk0 (F := Ideal) (Hand.V1 m ρ) c 6 t) (iblk0 (F := Ideal) (Hand.V1 m ρ) c 7 t) j
      = Gzn m c (((cfg0.win 9).blk t).view.emb j)
  refine point_zn (weightsAt m c) (m ((c : Thread nD τ).loc main_arg0)) _ _ _ _ _ _ _ _ t.val (weights_eq m ρ c t)
    (fun p k row hrow => ?_) j (((cfg0.win 9).blk t).view.emb j) ?_ ?_
  · rw [blk0_apply (Hand.V1 m ρ) c t p k row hrow, V1_arg m ρ c main_arg0 (by decide)]
  · show win0_9.index t (0 : Fin 2) * 1024 + 1 * (j 0).val = t.val * 1024 + (j 0).val; omega
  · show win0_9.index t (1 : Fin 2) * 128 + 1 * (j 1).val = (j 1).val; omega

/-- An entry of result one is in point t's block iff each coordinate is in the block's range. -/
theorem mem_blk8 (t : Fin cfg0.N) (i : S8192x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v1_0).slice (win0_8.rect t)).set ↔ _
  rw [View.set_slice_whole, Rect.mem_set_unit]
  exact Iff.rfl

/-- Entry (r, o) is in the block of point r / 1024: the blocks fill the array. -/
theorem cover8 (i : S8192x128.Idx) : ∃ t : Fin cfg0.N, (cfg0.win 8).flush t = true ∧ i ∈ ((cfg0.win 8).blk t).view.set := by
  have hN : cfg0.N = 8 := N_0
  have hi0 : (i 0).val < 8192 := (i 0).isLt
  have hi1 : (i 1).val < 128 := (i 1).isLt
  obtain ⟨t, ht⟩ : ∃ t : Fin cfg0.N, t.val = (i 0).val / 1024 := ⟨⟨(i 0).val / 1024, by omega⟩, rfl⟩
  obtain ⟨-, -, -, -, -, -, -, -, -, -, -, e80, e81, e90, e91⟩ := idx_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega

/-- An entry of result two is in point t's block iff each coordinate is in the block's range. -/
theorem mem_blk9 (t : Fin cfg0.N) (i : S8192x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v1_1).slice (win0_9.rect t)).set ↔ _
  rw [View.set_slice_whole, Rect.mem_set_unit]
  exact Iff.rfl

/-- Entry (r, o) is in the block of point r / 1024: the blocks fill the array. -/
theorem cover9 (i : S8192x128.Idx) : ∃ t : Fin cfg0.N, (cfg0.win 9).flush t = true ∧ i ∈ ((cfg0.win 9).blk t).view.set := by
  have hN : cfg0.N = 8 := N_0
  have hi0 : (i 0).val < 8192 := (i 0).isLt
  have hi1 : (i 1).val < 128 := (i 1).isLt
  obtain ⟨t, ht⟩ : ∃ t : Fin cfg0.N, t.val = (i 0).val / 1024 := ⟨⟨(i 0).val / 1024, by omega⟩, rfl⟩
  obtain ⟨-, -, -, -, -, -, -, -, -, -, -, e80, e81, e90, e91⟩ := idx_facts t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

/-- The first result array after the region is the network's second layer, row by row. -/
theorem arr8_eq (c : Dev nD) : (dat0 (F := Ideal) (Hand.V1 m ρ) c).arrAt 8 cfg0.N = Gz m c :=
  (dat0 (F := Ideal) (Hand.V1 m ρ) c).arrAt_eq_of_cover 8 (Gz m c) (fun t _ => flushed8_eq m ρ c t) cover8

/-- The second result array after the region is the network's rows of unit length. -/
theorem arr9_eq (c : Dev nD) : (dat0 (F := Ideal) (Hand.V1 m ρ) c).arrAt 9 cfg0.N = Gzn m c :=
  (dat0 (F := Ideal) (Hand.V1 m ρ) c).arrAt_eq_of_cover 9 (Gzn m c) (fun t _ => flushed9_eq m ρ c t) cover9

end Run

theorem final_z (m : (ℓ : Loc nD τ sig) → Buf (Elt Ideal) ℓ) (ρ : Dev nD → PrngReg) (c : Dev nD) (r : Fin 8192) (o : Fin 128) :
    (dat0 (F := Ideal) (V1 m ρ) c).arrAt 8 cfg0.N (ix2 r o) = Cert.Net.zrow (weightsAt m c) (Cert.Net.rowOf (m ((c : Thread nD τ).loc main_arg0)) r) o :=
  congrFun (arr8_eq m ρ c) (ix2 r o)

theorem final_zn (m : (ℓ : Loc nD τ sig) → Buf (Elt Ideal) ℓ) (ρ : Dev nD → PrngReg) (c : Dev nD) (r : Fin 8192) (o : Fin 128) :
    (dat0 (F := Ideal) (V1 m ρ) c).arrAt 9 cfg0.N (ix2 r o) = Cert.Net.znrow (weightsAt m c) (Cert.Net.rowOf (m ((c : Thread nD τ).loc main_arg0)) r) o :=
  congrFun (arr9_eq m ρ c) (ix2 r o)

end Cert.KernelIdeal.HandValue

end
-- ==== Proof.KernelPairs.lean ====
/-
  The second program's result array: all pairs of rows of the scaled rows.

  The 8 × 8 grid writes the 8192 × 8192 result tile by tile: the point with coordinates (i, j) loads rows
  1024 i … 1024 i + 1023 and rows 1024 j … 1024 j + 1023 of the scaled rows and stores, as tile (i, j), the inner products
  of every row of the first block with every row of the second. So each point writes a block of ONE function of the
  array's index — entry (r, s) is the inner product of rows r and s —, the 64 tiles cover the array, and the array ends
  holding that function whatever it held before.
-/
import proofs.«147210_j66846870995045_1_alg».proof.Proof.KiRegion1
import proofs.«147210_j66846870995045_1_alg».proof.Proof.KernelPayloads
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand Idealize.ShloMosaic Idealize.ShloMosaic.TcCoe
  Idealize.ShloMosaic.ValueIdx Idealize.SL.Sem
open Idealize.ShloMosaic.Pipeline (Dat)

/-- The zero offsets of a whole-buffer rectangle. -/
theorem offsets_zero : (![0, 0] : Fin 2 → Nat) = fun _ => 0 := funext fun a => by fin_cases a <;> rfl

/-- All pairs of rows: entry (r, s) is the inner product of rows r and s of `X`. -/
abbrev pairs (X : S8192x128.Idx → EReal) : S8192x8192.Idx → EReal :=
  fun i => ∑ o : Fin 128, X (ix2 (i 0) o) * X (ix2 (i 1) o)

/-- A tile's entry: when the first block's row `y 0` is row `i 0` of `X` and the second block's row `y 1` is row `i 1`,
    the product of the first block with the second transposed has, at `y`, the inner product of those two rows. -/
theorem tile_entry (X : S8192x128.Idx → EReal) (a b : FVec Ideal S1024x128 .bf16) (y : S1024x1024.Idx) (i : S8192x8192.Idx)
    (ea : ∀ o : Fin 128, a (ix2 (y 0) o) = X (ix2 (i 0) o)) (eb : ∀ o : Fin 128, b (ix2 (y 1) o) = X (ix2 (i 1) o)) :
    k1_pay1 (F := Ideal) a b y = pairs X i := by
  refine ((congrArg (k1_pay1 (F := Ideal) a b) (eq_ix2 y)).trans (Cert.KernelIdeal.Pay.pay_y a b (y 0) (y 1))).trans ?_
  exact Finset.sum_congr rfl fun o _ => congrArg₂ (· * ·) (ea o) (eb o)

/-- The printed index maps, decided over the 64 points: the first input's block index is the tile's row index, the
    second's the tile's column index, both at column block 0; and the tile's indices stay below 8. -/
theorem tile_facts : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 7 ∧ win1_2.index t (1 : Fin 2) ≤ 7 :=
  (by decide +kernel : ∀ t : Fin grid1.N, _)

/-- Every tile of the 8 × 8 grid of tiles is some point's. -/
theorem tile_onto : ∀ (q0 q1 : Fin 8), ∃ t : Fin cfg1.N, win1_2.index t = ![q0.val, q1.val] :=
  (by decide +kernel : ∀ (q0 q1 : Fin 8), ∃ t : Fin grid1.N, win1_2.index t = ![q0.val, q1.val])

variable (V : (c : Dev nD) → (b : Ref sig .tc) → Buf (Elt Ideal) ((c : Thread nD τ).loc b))

/-- What point `t` writes back is tile `t` of all pairs of rows of the scaled rows as the region finds them. -/
theorem flushed_pairs (c : Dev nD) (t : Fin cfg1.N) :
    (dat1 (F := Ideal) V c).flushed 2 t = ((cfg1.win 2).blk t).view.read (Elt Ideal) (pairs (V c main_v1_1)) := by
  show (cfg1.win 2).cut (grid1.coords t) ((dat1 (F := Ideal) V c).after 2 t) = _
  rw [after1_2]
  unfold out1_2
  rw [View.canon_unit_zero offsets_zero]
  simp only [View.ld_unit_zero (S := S1024x128) offsets_zero]
  obtain ⟨e0, e1, e2, e3, -, -⟩ := tile_facts t
  funext j
  show k1_pay1 (F := Ideal) (iblk1 V c 0 t) (iblk1 V c 1 t) ((cfg1.win 2).xinj (grid1.coords t) j)
    = pairs (V c main_v1_1) (((cfg1.win 2).blk t).view.emb j)
  refine tile_entry (V c main_v1_1) _ _ _ _ (fun o => ?_) (fun o => ?_)
  · show V c main_v1_1 (((cfg1.win 0).blk t).view.emb (ix2 ((cfg1.win 2).xinj (grid1.coords t) j 0) o)) = _
    refine congrArg (V c main_v1_1) (funext fun a => Fin.ext ?_)
    match a with
    | ⟨0, _⟩ =>
      show win1_0.index t (0 : Fin 2) * 1024 + 1 * (j 0).val = win1_2.index t (0 : Fin 2) * 1024 + 1 * (j 0).val
      omega
    | ⟨1, _⟩ =>
      show win1_0.index t (1 : Fin 2) * 128 + 1 * o.val = o.val
      omega
  · show V c main_v1_1 (((cfg1.win 1).blk t).view.emb (ix2 ((cfg1.win 2).xinj (grid1.coords t) j 1) o)) = _
    refine congrArg (V c main_v1_1) (funext fun a => Fin.ext ?_)
    match a with
    | ⟨0, _⟩ =>
      show win1_1.index t (0 : Fin 2) * 1024 + 1 * (j 1).val = win1_2.index t (1 : Fin 2) * 1024 + 1 * (j 1).val
      omega
    | ⟨1, _⟩ =>
      show win1_1.index t (1 : Fin 2) * 128 + 1 * o.val = o.val
      omega

/-- An index of the result array is in point `t`'s tile iff each coordinate is in the tile's range on its axis. -/
theorem mem_tile (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v2).slice (win1_2.rect t)).set ↔ _
  rw [View.set_slice_whole, Rect.mem_set_unit]
  exact Iff.rfl

/-- The tiles cover the array: entry (r, s) is in the tile with coordinates (r / 1024, s / 1024). -/
theorem tiles_cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_tile]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

/-- The result array after the region: all pairs of rows of the scaled rows, whatever it held before. -/
theorem final_pairs (c : Dev nD) : (dat1 (F := Ideal) V c).arrAt 2 cfg1.N = pairs (V c main_v1_1) :=
  (dat1 (F := Ideal) V c).arrAt_eq_of_cover 2 (pairs (V c main_v1_1)) (fun t _ => flushed_pairs V c t) tiles_cover

/-- The result array at entry (r, s): the inner product of rows r and s of the scaled rows. -/
theorem final_y (V : (c : Dev nD) → (b : Ref sig .tc) → Buf (Elt Ideal) ((c : Thread nD τ).loc b)) (c : Dev nD) (r s : Fin 8192) :
    (dat1 (F := Ideal) V c).arrAt 2 cfg1.N (ix2 r s)
      = ∑ o : Fin 128, HMul.hMul (α := EReal) (β := EReal) (γ := EReal) (V c main_v1_1 (ix2 r o)) (V c main_v1_1 (ix2 s o)) :=
  congrFun (final_pairs V c) (ix2 r s)

end Cert.KernelIdeal.HandValue

end
-- ==== Proof.RefIsNet.lean ====
/-
  The reference program computes the network of the specification.

  Each operation of the reference program is read at an index with explicit coordinates: a row r of the 8192, a column
  j of the 512 or o of the 128, and the single column of a kept axis of size one. Stage by stage the value read is the
  specification's: the first linear layer, the rectifier, the row mean, the centred row, the mean of its squares, the
  reciprocal root, the scaled and shifted row, the second linear layer, the floored length, the row of unit length, and
  the inner product of two such rows. Every pointwise operation is the arithmetic of the extended reals by definition;
  a sum over a row starts from the number the zero word denotes, which is zero.
-/
import proofs.«147210_j66846870995045_1_alg».proof.Proof.Gen.ReferenceIdeal.Read
import proofs.«147210_j66846870995045_1_alg».proof.Proof.NetSpec
import Idealize.ShloMosaic.Lib.Pipeline.Value
import Idealize.ShloMosaic.Lib.ValueIdx
import Idealize.ShloMosaic.PureOps.Ideal.Laws

noncomputable section

open scoped BigOperators

namespace Cert.ReferenceIdeal.RefNet

open Cert.ReferenceIdeal Cert.ReferenceIdeal.Read Idealize.ShloMosaic Idealize.ShloMosaic.ValueIdx

/-- The weights the seven weight arrays hold; the slope is the one entry of the rank-0 array. -/
abbrev W (x1 : (⟨S1024x512, .f32⟩ : BufTy).Contents (Elt Ideal)) (x2 : (⟨S512, .f32⟩ : BufTy).Contents (Elt Ideal)) (x3 : (⟨S_, .f32⟩ : BufTy).Contents (Elt Ideal)) (x4 x5 : (⟨S512, .f32⟩ : BufTy).Contents (Elt Ideal)) (x6 : (⟨S512x128, .f32⟩ : BufTy).Contents (Elt Ideal)) (x7 : (⟨S128, .f32⟩ : BufTy).Contents (Elt Ideal)) : Cert.Net.Weights :=
  Cert.Net.weightsOf x1 x2 (x3 ix0) x4 x5 x6 x7

/-! ## Index equations: the composed index functions at a point with explicit coordinates -/

theorem lidx_v0 (r : Fin 8192) (j : Fin 512) (k : Fin 1024) : lidx_main_v0 (ix2 r j) k = ix2 r k :=
  funext fun a => Fin.ext (by match a with | ⟨0, _⟩ => rfl | ⟨1, _⟩ => rfl)
theorem ridx_v0 (r : Fin 8192) (j : Fin 512) (k : Fin 1024) : ridx_main_v0 (ix2 r j) k = ix2 k j :=
  funext fun a => Fin.ext (by match a with | ⟨0, _⟩ => rfl | ⟨1, _⟩ => rfl)
theorem idx_v1 (r : Fin 8192) (j : Fin 512) : idx_main_v1 (idx_main_v2 (ix2 r j)) = ix1 j :=
  funext fun a => Fin.ext (by match a with | ⟨0, _⟩ => rfl)
theorem idx_v9 (r : Fin 8192) (z : Fin 1) (k : Fin 512) : idx_main_v9 (idx_main_v10 (ix2 r z)) k = ix2 r k :=
  funext fun a => Fin.ext (by match a with | ⟨0, _⟩ => rfl | ⟨1, _⟩ => rfl)
theorem idx_v13 (r : Fin 8192) (j : Fin 512) : idx_main_v13 (ix2 r j) = ix2 r (⟨0, Nat.one_pos⟩ : Fin 1) :=
  funext fun a => Fin.ext (by match a with | ⟨0, _⟩ => rfl | ⟨1, _⟩ => rfl)
theorem idx_v16 (r : Fin 8192) (z : Fin 1) (k : Fin 512) : idx_main_v16 (idx_main_v17 (ix2 r z)) k = ix2 r k :=
  funext fun a => Fin.ext (by match a with | ⟨0, _⟩ => rfl | ⟨1, _⟩ => rfl)
theorem idx_v20 (r : Fin 8192) (j : Fin 512) : idx_main_v20 (ix2 r j) = ix2 r (⟨0, Nat.one_pos⟩ : Fin 1) :=
  funext fun a => Fin.ext (by match a with | ⟨0, _⟩ => rfl | ⟨1, _⟩ => rfl)
theorem idx_v25 (r : Fin 8192) (j : Fin 512) : idx_main_v25 (ix2 r j) = ix2 r (⟨0, Nat.one_pos⟩ : Fin 1) :=
  funext fun a => Fin.ext (by match a with | ⟨0, _⟩ => rfl | ⟨1, _⟩ => rfl)
theorem idx_v27 (r : Fin 8192) (j : Fin 512) : idx_main_v27 (idx_main_v28 (ix2 r j)) = ix1 j :=
  funext fun a => Fin.ext (by match a with | ⟨0, _⟩ => rfl)
theorem idx_v30 (r : Fin 8192) (j : Fin 512) : idx_main_v30 (idx_main_v31 (ix2 r j)) = ix1 j :=
  funext fun a => Fin.ext (by match a with | ⟨0, _⟩ => rfl)
theorem lidx_v33 (r : Fin 8192) (o : Fin 128) (k : Fin 512) : lidx_main_v33 (ix2 r o) k = ix2 r k :=
  funext fun a => Fin.ext (by match a with | ⟨0, _⟩ => rfl | ⟨1, _⟩ => rfl)
theorem ridx_v33 (r : Fin 8192) (o : Fin 128) (k : Fin 512) : ridx_main_v33 (ix2 r o) k = ix2 k o :=
  funext fun a => Fin.ext (by match a with | ⟨0, _⟩ => rfl | ⟨1, _⟩ => rfl)
theorem idx_v34 (r : Fin 8192) (o : Fin 128) : idx_main_v34 (idx_main_v35 (ix2 r o)) = ix1 o :=
  funext fun a => Fin.ext (by match a with | ⟨0, _⟩ => rfl)
theorem idx_c1 (r : Fin 8192) (z : Fin 1) (k : Fin 128) : idx_main_call1_v1 (idx_main_call1_v2 (ix2 r z)) k = ix2 r k :=
  funext fun a => Fin.ext (by match a with | ⟨0, _⟩ => rfl | ⟨1, _⟩ => rfl)
theorem idx_v40 (r : Fin 8192) (o : Fin 128) : idx_main_v40 (ix2 r o) = ix2 r (⟨0, Nat.one_pos⟩ : Fin 1) :=
  funext fun a => Fin.ext (by match a with | ⟨0, _⟩ => rfl | ⟨1, _⟩ => rfl)
theorem lidx_v43 (r s : Fin 8192) (k : Fin 128) : lidx_main_v43 (ix2 r s) k = ix2 r k :=
  funext fun a => Fin.ext (by match a with | ⟨0, _⟩ => rfl | ⟨1, _⟩ => rfl)
theorem ridx_v43 (r s : Fin 8192) (k : Fin 128) : idx_main_v42 (ridx_main_v43 (ix2 r s) k) = ix2 s k :=
  funext fun a => Fin.ext (by match a with | ⟨0, _⟩ => rfl | ⟨1, _⟩ => rfl)

/-- A row sum started from the zero word and divided by the literal 512 is the mean of the summands. -/
theorem mean_of_sum {f g : Fin 512 → EReal} (h : ∀ k, f k = g k) :
    Ideal.div (Ideal.ofBits .f32 0x00000000#32 + ∑ k : Fin 512, f k) Cert.Net.lit512 = Cert.Net.mean g := by
  rw [Ideal.ofBits_zero_f32, zero_add]
  exact congrArg (fun t => Ideal.div t Cert.Net.lit512) (Finset.sum_congr rfl fun k _ => h k)

/-- The floored root of a row sum of squares started from the zero word is the length of the row. -/
theorem len_of_sum {f : Fin 128 → EReal} {g : Fin 128 → EReal} (h : ∀ k, f k = g k * g k) :
    max (Ideal.sqrt (Ideal.ofBits .f32 0x00000000#32 + ∑ k : Fin 128, f k)) Cert.Net.litEpsLen = Cert.Net.len g := by
  rw [Ideal.ofBits_zero_f32, zero_add]
  exact congrArg (fun t => max (Ideal.sqrt t) Cert.Net.litEpsLen) (Finset.sum_congr rfl fun k _ => h k)

section Stages

variable (x0 : (⟨S8192x1024, .f32⟩ : BufTy).Contents (Elt Ideal)) (x1 : (⟨S1024x512, .f32⟩ : BufTy).Contents (Elt Ideal)) (x2 : (⟨S512, .f32⟩ : BufTy).Contents (Elt Ideal)) (x3 : (⟨S_, .f32⟩ : BufTy).Contents (Elt Ideal)) (x4 x5 : (⟨S512, .f32⟩ : BufTy).Contents (Elt Ideal)) (x6 : (⟨S512x128, .f32⟩ : BufTy).Contents (Elt Ideal)) (x7 : (⟨S128, .f32⟩ : BufTy).Contents (Elt Ideal))

/-- The first linear layer: entry (r, j) is the inner product of row r with column j of the first matrix, plus the bias. -/
theorem lin1_at (r : Fin 8192) (j : Fin 512) :
    val_main_v3 (F := Ideal) x0 x1 x2 (ix2 r j) = Cert.Net.lin1 (W x1 x2 x3 x4 x5 x6 x7) (Cert.Net.rowOf x0 r) j := by
  rw [val_main_v3_apply, val_main_v0_apply, val_main_v2_apply, val_main_v1_apply, idx_v1]
  unfold Cert.Net.lin1
  refine congrArg₂ (· + ·) (Finset.sum_congr rfl fun k _ => ?_) rfl
  rw [lidx_v0, ridx_v0]; rfl

/-- The rectifier: the entry itself where it is at least zero, the slope times the entry elsewhere. -/
theorem pre_at (r : Fin 8192) (j : Fin 512) :
    val_main_v8 (F := Ideal) x0 x1 x2 x3 (ix2 r j) = Cert.Net.pre (W x1 x2 x3 x4 x5 x6 x7) (Cert.Net.rowOf x0 r) j := by
  rw [val_main_v8_apply, val_main_v5_apply, val_main_v7_apply, val_main_v4_apply, val_main_v6_apply, lin1_at x0 x1 x2 x3 x4 x5 x6 x7 r j]
  rfl

/-- The mean of row r, in the kept column. -/
theorem mean_at (r : Fin 8192) (z : Fin 1) :
    val_main_v12 (F := Ideal) x0 x1 x2 x3 (ix2 r z) = Cert.Net.mean (Cert.Net.pre (W x1 x2 x3 x4 x5 x6 x7) (Cert.Net.rowOf x0 r)) := by
  rw [val_main_v12_apply, val_main_v10_apply, val_main_v9_apply, val_main_v11_apply]
  exact mean_of_sum (f := fun k => val_main_v8 (F := Ideal) x0 x1 x2 x3 (idx_main_v9 (idx_main_v10 (ix2 r z)) k)) fun k => by
    rw [idx_v9]; exact pre_at x0 x1 x2 x3 x4 x5 x6 x7 r k

/-- The centred row, as the variance reads it. -/
theorem cen_at (r : Fin 8192) (j : Fin 512) :
    val_main_v14 (F := Ideal) x0 x1 x2 x3 (ix2 r j) = (Cert.Net.pre (W x1 x2 x3 x4 x5 x6 x7) (Cert.Net.rowOf x0 r)) j - Cert.Net.mean (Cert.Net.pre (W x1 x2 x3 x4 x5 x6 x7) (Cert.Net.rowOf x0 r)) := by
  rw [val_main_v14_apply, val_main_v13_apply, idx_v13, mean_at x0 x1 x2 x3 x4 x5 x6 x7 r (⟨0, Nat.one_pos⟩ : Fin 1), pre_at x0 x1 x2 x3 x4 x5 x6 x7 r j]
  rfl

/-- The mean of the squares of the centred row, in the kept column. -/
theorem var_at (r : Fin 8192) (z : Fin 1) :
    val_main_v19 (F := Ideal) x0 x1 x2 x3 (ix2 r z) = (Cert.Net.mean (fun j' => ((Cert.Net.pre (W x1 x2 x3 x4 x5 x6 x7) (Cert.Net.rowOf x0 r)) j' - Cert.Net.mean (Cert.Net.pre (W x1 x2 x3 x4 x5 x6 x7) (Cert.Net.rowOf x0 r))) * ((Cert.Net.pre (W x1 x2 x3 x4 x5 x6 x7) (Cert.Net.rowOf x0 r)) j' - Cert.Net.mean (Cert.Net.pre (W x1 x2 x3 x4 x5 x6 x7) (Cert.Net.rowOf x0 r))))) := by
  rw [val_main_v19_apply, val_main_v17_apply, val_main_v16_apply, val_main_v18_apply]
  exact mean_of_sum (f := fun k => val_main_v15 (F := Ideal) x0 x1 x2 x3 (idx_main_v16 (idx_main_v17 (ix2 r z)) k)) fun k => by
    rw [idx_v16, val_main_v15_apply, cen_at x0 x1 x2 x3 x4 x5 x6 x7 r k]; rfl

/-- The reciprocal root of the variance plus the small constant, in the kept column. -/
theorem rs_at (r : Fin 8192) (z : Fin 1) :
    val_main_v24 (F := Ideal) x0 x1 x2 x3 (ix2 r z) = Ideal.rsqrt ((Cert.Net.mean (fun j' => ((Cert.Net.pre (W x1 x2 x3 x4 x5 x6 x7) (Cert.Net.rowOf x0 r)) j' - Cert.Net.mean (Cert.Net.pre (W x1 x2 x3 x4 x5 x6 x7) (Cert.Net.rowOf x0 r))) * ((Cert.Net.pre (W x1 x2 x3 x4 x5 x6 x7) (Cert.Net.rowOf x0 r)) j' - Cert.Net.mean (Cert.Net.pre (W x1 x2 x3 x4 x5 x6 x7) (Cert.Net.rowOf x0 r))))) + Cert.Net.litEpsNorm) := by
  rw [val_main_v24_apply, val_main_v23_apply, val_main_v22_apply, var_at x0 x1 x2 x3 x4 x5 x6 x7 r z]
  rfl

/-- The normalised row, scaled and shifted. -/
theorem hn_at (r : Fin 8192) (j : Fin 512) :
    val_main_v32 (F := Ideal) x0 x1 x2 x3 x4 x5 (ix2 r j) = Cert.Net.hn (W x1 x2 x3 x4 x5 x6 x7) (Cert.Net.rowOf x0 r) j := by
  rw [val_main_v32_apply, val_main_v29_apply, val_main_v26_apply, val_main_v21_apply, val_main_v20_apply, val_main_v25_apply,
    val_main_v28_apply, val_main_v27_apply, val_main_v31_apply, val_main_v30_apply, idx_v20, idx_v25, idx_v27, idx_v30,
    mean_at x0 x1 x2 x3 x4 x5 x6 x7 r (⟨0, Nat.one_pos⟩ : Fin 1), rs_at x0 x1 x2 x3 x4 x5 x6 x7 r (⟨0, Nat.one_pos⟩ : Fin 1), pre_at x0 x1 x2 x3 x4 x5 x6 x7 r j]
  rfl

/-- The second linear layer: the first result at (r, o). -/
theorem z_at (r : Fin 8192) (o : Fin 128) :
    val_main_v36 (F := Ideal) x0 x1 x2 x3 x4 x5 x6 x7 (ix2 r o) = Cert.Net.zrow (W x1 x2 x3 x4 x5 x6 x7) (Cert.Net.rowOf x0 r) o := by
  rw [val_main_v36_apply, val_main_v33_apply, val_main_v35_apply, val_main_v34_apply, idx_v34]
  unfold Cert.Net.zrow
  refine congrArg₂ (· + ·) (Finset.sum_congr rfl fun k _ => ?_) rfl
  rw [lidx_v33, ridx_v33, hn_at x0 x1 x2 x3 x4 x5 x6 x7 r k]; rfl

/-- The floored length of row r of the first result, in the kept column. -/
theorem len_at (r : Fin 8192) (z : Fin 1) :
    val_main_v39 (F := Ideal) x0 x1 x2 x3 x4 x5 x6 x7 (ix2 r z) = Cert.Net.len (Cert.Net.zrow (W x1 x2 x3 x4 x5 x6 x7) (Cert.Net.rowOf x0 r)) := by
  rw [val_main_v39_apply, val_main_v37_apply, val_main_call1_v2_apply, val_main_call1_v1_apply, val_main_v38_apply]
  exact len_of_sum (f := fun k => val_main_call1_v0 (F := Ideal) x0 x1 x2 x3 x4 x5 x6 x7 (idx_main_call1_v1 (idx_main_call1_v2 (ix2 r z)) k)) fun k => by
    rw [idx_c1, val_main_call1_v0_apply, z_at x0 x1 x2 x3 x4 x5 x6 x7 r k]; rfl

/-- The row of unit length at (r, o). -/
theorem zn_at (r : Fin 8192) (o : Fin 128) :
    val_main_v41 (F := Ideal) x0 x1 x2 x3 x4 x5 x6 x7 (ix2 r o) = Cert.Net.znrow (W x1 x2 x3 x4 x5 x6 x7) (Cert.Net.rowOf x0 r) o := by
  rw [val_main_v41_apply, val_main_v40_apply, idx_v40, len_at x0 x1 x2 x3 x4 x5 x6 x7 r (⟨0, Nat.one_pos⟩ : Fin 1), z_at x0 x1 x2 x3 x4 x5 x6 x7 r o]
  rfl

/-- The second result at (r, s): the inner product of the unit rows r and s. -/
theorem gram_at (r s : Fin 8192) :
    val_main_v43 (F := Ideal) x0 x1 x2 x3 x4 x5 x6 x7 (ix2 r s) = Cert.Net.gram (W x1 x2 x3 x4 x5 x6 x7) (Cert.Net.rowOf x0 r) (Cert.Net.rowOf x0 s) := by
  rw [val_main_v43_apply]
  unfold Cert.Net.gram
  refine Finset.sum_congr rfl fun k _ => ?_
  rw [val_main_v42_apply, lidx_v43, ridx_v43, zn_at x0 x1 x2 x3 x4 x5 x6 x7 r k, zn_at x0 x1 x2 x3 x4 x5 x6 x7 s k]

end Stages

/-- The reference's first result is the specification's matrix of second-layer rows. -/
theorem ref_z (x0 : (⟨S8192x1024, .f32⟩ : BufTy).Contents (Elt Ideal)) (x1 : (⟨S1024x512, .f32⟩ : BufTy).Contents (Elt Ideal)) (x2 : (⟨S512, .f32⟩ : BufTy).Contents (Elt Ideal)) (x3 : (⟨S_, .f32⟩ : BufTy).Contents (Elt Ideal)) (x4 x5 : (⟨S512, .f32⟩ : BufTy).Contents (Elt Ideal)) (x6 : (⟨S512x128, .f32⟩ : BufTy).Contents (Elt Ideal)) (x7 : (⟨S128, .f32⟩ : BufTy).Contents (Elt Ideal)) :
    val_main_v36 (F := Ideal) x0 x1 x2 x3 x4 x5 x6 x7 = Cert.Net.zMat (Cert.Net.weightsOf x1 x2 (x3 ix0) x4 x5 x6 x7) x0 := by
  funext i
  obtain ⟨r, o, rfl⟩ : ∃ (r : Fin 8192) (o : Fin 128), i = ix2 r o := ⟨i 0, i 1, eq_ix2 i⟩
  exact z_at x0 x1 x2 x3 x4 x5 x6 x7 r o

/-- The reference's second result is the specification's matrix of inner products of unit rows. -/
theorem ref_y (x0 : (⟨S8192x1024, .f32⟩ : BufTy).Contents (Elt Ideal)) (x1 : (⟨S1024x512, .f32⟩ : BufTy).Contents (Elt Ideal)) (x2 : (⟨S512, .f32⟩ : BufTy).Contents (Elt Ideal)) (x3 : (⟨S_, .f32⟩ : BufTy).Contents (Elt Ideal)) (x4 x5 : (⟨S512, .f32⟩ : BufTy).Contents (Elt Ideal)) (x6 : (⟨S512x128, .f32⟩ : BufTy).Contents (Elt Ideal)) (x7 : (⟨S128, .f32⟩ : BufTy).Contents (Elt Ideal)) :
    val_main_v43 (F := Ideal) x0 x1 x2 x3 x4 x5 x6 x7 = Cert.Net.yMat (Cert.Net.weightsOf x1 x2 (x3 ix0) x4 x5 x6 x7) x0 := by
  funext i
  obtain ⟨r, s, rfl⟩ : ∃ (r s : Fin 8192), i = ix2 r s := ⟨i 0, i 1, eq_ix2 i⟩
  exact gram_at x0 x1 x2 x3 x4 x5 x6 x7 r s

end Cert.ReferenceIdeal.RefNet

end
-- ==== Proof.Bridge.lean ====
/-
  The two programs compute one network.

  On every core the kernel program's first result array ends at the second layer's rows `zMat` of the launch memory's
  input and weights — it is the first region's first output array, assembled from its eight blocks of rows, and the
  second region never touches it —, and its second result at the pairs `yMat`: the second region's output array,
  assembled from its 64 tiles, each tile the inner products of two blocks of the scaled rows the first region left.
  The reference's two results are the same two matrices of ITS memory, read one operation at a time; the memories agree
  on the arguments, so the results are equal, entry by entry, on the extended reals. No law of arithmetic is used: both
  sides spell the same sums, quotients and roots, so the finiteness of the inputs is never opened.
-/
import proofs.«147210_j66846870995045_1_alg».proof.Defs
import proofs.«147210_j66846870995045_1_alg».proof.Proof.KiFrame
import proofs.«147210_j66846870995045_1_alg».proof.Proof.KFrame
import proofs.«147210_j66846870995045_1_alg».proof.Proof.KernelRows
import proofs.«147210_j66846870995045_1_alg».proof.Proof.KernelPairs
import proofs.«147210_j66846870995045_1_alg».proof.Proof.RefIsNet
import proofs.«147210_j66846870995045_1_alg».proof.Proof.Gen.ReferenceIdeal.Run
import proofs.«147210_j66846870995045_1_alg».proof.Proof.Gen.ReferenceIdeal.Read
import proofs.«147210_j66846870995045_1_alg».proof.Proof.Gen.Pre_finite_inputs

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first region's first output array, whole: the second layer's rows. -/
theorem kernel_z (c : Dev nD) :
    (dat0 (F := Ideal) (V1 m ρ) c).arrAt 8 cfg0.N = Cert.Net.zMat (weightsAt m c) (m ((c : Thread nD τ).loc main_arg0)) := by
  funext i
  obtain ⟨r, o, rfl⟩ : ∃ (r : Fin 8192) (o : Fin 128), i = ix2 r o := ⟨i 0, i 1, eq_ix2 i⟩
  exact final_z m ρ c r o

/-- The second region's output array, whole: the pairs of scaled rows. -/
theorem kernel_y (c : Dev nD) :
    (dat1 (F := Ideal) (V2 m ρ) c).arrAt 2 cfg1.N = Cert.Net.yMat (weightsAt m c) (m ((c : Thread nD τ).loc main_arg0)) := by
  funext i
  obtain ⟨r, s, rfl⟩ : ∃ (r s : Fin 8192), i = ix2 r s := ⟨i 0, i 1, eq_ix2 i⟩
  refine (final_y (V2 m ρ) c r s).trans ?_
  have hz : ∀ (r : Fin 8192) (o : Fin 128), V2 m ρ c main_v1_1 (ix2 r o)
      = Cert.Net.znrow (weightsAt m c) (Cert.Net.rowOf (m ((c : Thread nD τ).loc main_arg0)) r) o := fun r o => by
    rw [V2_main_v1_1]; exact final_zn m ρ c r o
  simp only [hz]
  rfl

end Cert.KernelIdeal.HandValue

namespace Cert.Proof.Claims

open Idealize.ShloMosaic Idealize.ShloMosaic.TcCoe Idealize.ShloMosaic.ValueIdx Idealize.SL.Sem
open Cert.KernelIdeal.Hand Cert.KernelIdeal.HandValue

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end, from memories agreeing on the arguments, with the same two matrices. -/
theorem algebraic : Cert.algebraic_KernelIdeal_ReferenceIdeal := by
  intro m ρ m' ρ' _ hagree
  refine ⟨fun c => Cert.Net.zMat (weightsAt m c) (m ((c : Thread Cert.KernelIdeal.nD Cert.KernelIdeal.τ).loc Cert.KernelIdeal.main_arg0)),
    fun c => Cert.Net.yMat (weightsAt m c) (m ((c : Thread Cert.KernelIdeal.nD Cert.KernelIdeal.τ).loc Cert.KernelIdeal.main_arg0)), ?_, ?_⟩
  · refine (θ_run Cert.KernelIdeal.defs _ _).mono (fun r h c => ⟨?_, ?_, ?_⟩) (Cert.KernelIdeal.Hand.run_main m ρ)
    · exact (h c _ (mem_uc Cert.KernelIdeal.main_v1_0 (by decide))).trans ((W3_main_v1_0 m ρ c).trans (kernel_z m ρ c))
    · exact (h c _ (mem_uc Cert.KernelIdeal.main_v2 (by decide))).trans ((W3_out m ρ c).trans (kernel_y m ρ c))
    · exact ⟨(h c _ (mem_uc Cert.KernelIdeal.main_arg0 (by decide))).trans (W3_main_arg0 m ρ c),
        (h c _ (mem_uc Cert.KernelIdeal.main_arg1 (by decide))).trans (W3_main_arg1 m ρ c),
        (h c _ (mem_uc Cert.KernelIdeal.main_arg2 (by decide))).trans (W3_main_arg2 m ρ c),
        (h c _ (mem_uc Cert.KernelIdeal.main_arg3 (by decide))).trans (W3_main_arg3 m ρ c),
        (h c _ (mem_uc Cert.KernelIdeal.main_arg4 (by decide))).trans (W3_main_arg4 m ρ c),
        (h c _ (mem_uc Cert.KernelIdeal.main_arg5 (by decide))).trans (W3_main_arg5 m ρ c),
        (h c _ (mem_uc Cert.KernelIdeal.main_arg6 (by decide))).trans (W3_main_arg6 m ρ c),
        (h c _ (mem_uc Cert.KernelIdeal.main_arg7 (by decide))).trans (W3_main_arg7 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v36_eq, Cert.ReferenceIdeal.RefNet.ref_z, (hagree c).1, (hagree c).2.1, (hagree c).2.2.1,
        (hagree c).2.2.2.1, (hagree c).2.2.2.2.1, (hagree c).2.2.2.2.2.1, (hagree c).2.2.2.2.2.2.1, (hagree c).2.2.2.2.2.2.2]
      rfl
    · rw [Cert.ReferenceIdeal.Read.val_main_v43_eq, Cert.ReferenceIdeal.RefNet.ref_y, (hagree c).1, (hagree c).2.1, (hagree c).2.2.1,
        (hagree c).2.2.2.1, (hagree c).2.2.2.2.1, (hagree c).2.2.2.2.2.1, (hagree c).2.2.2.2.2.2.1, (hagree c).2.2.2.2.2.2.2]
      rfl

end Cert.Proof.Claims

end
-- ==== Proof.lean ====
/-
  The certificate of the fused two-layer network with pairwise cosine similarities against its plain reference.

  The kernel program runs two kernel regions: the first computes, eight blocks of 1024 rows at a time, the second
  layer's rows and their unit-length scalings; the second computes, tile by tile, the inner products of all pairs of
  scaled rows, reading the scaled rows through two windows at once. Its three frames are the runs of
  `Proof/KFrame.lean` (the program as printed) and `Proof/KiFrame.lean` (its idealization), with the reference's
  generated run; the idealization rewrote nothing, so there is nothing to preserve; and the two idealized programs
  compute the same two matrices (`Proof/Bridge.lean`).
-/
import proofs.«147210_j66846870995045_1_alg».proof.Defs
import proofs.«147210_j66846870995045_1_alg».proof.Proof.Gen.Kernel
import proofs.«147210_j66846870995045_1_alg».proof.Proof.Gen.KernelIdeal
import proofs.«147210_j66846870995045_1_alg».proof.Proof.Gen.ReferenceIdeal
import proofs.«147210_j66846870995045_1_alg».proof.Proof.Gen.Pre_finite_inputs
import proofs.«147210_j66846870995045_1_alg».proof.Proof.KFrame
import proofs.«147210_j66846870995045_1_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
